-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x16x64x2048 : Shape := ⟨4, ![4, 16, 64, 2048]⟩
abbrev S4x16x2048x2048 : Shape := ⟨4, ![4, 16, 2048, 2048]⟩
abbrev S1x16x256x64 : Shape := ⟨4, ![1, 16, 256, 64]⟩
abbrev S1x16x64x256 : Shape := ⟨4, ![1, 16, 64, 256]⟩
abbrev S1x16x256x256 : Shape := ⟨4, ![1, 16, 256, 256]⟩
abbrev S16x256x64 : Shape := ⟨3, ![16, 256, 64]⟩
abbrev S16x64x256 : Shape := ⟨3, ![16, 64, 256]⟩
abbrev S16x256x256 : Shape := ⟨3, ![16, 256, 256]⟩
abbrev S256x256 : Shape := ⟨2, ![256, 256]⟩
abbrev S1x256x256 : Shape := ⟨3, ![1, 256, 256]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x64x2048, .f32⟩
  | .hbm, ⟨4, _⟩ => ⟨S4x16x2048x64, .f32⟩
  | .hbm, ⟨5, _⟩ => ⟨S4x16x2048x2048, .f32⟩
  | .local _ .vmem, ⟨0, _⟩ => ⟨S1x16x256x64, .f32⟩
  | .local _ .vmem, ⟨1, _⟩ => ⟨S1x16x256x64, .f32⟩
  | .local _ .vmem, ⟨2, _⟩ => ⟨S1x16x64x256, .f32⟩
  | .local _ .vmem, ⟨3, _⟩ => ⟨S1x16x64x256, .f32⟩
  | .local _ .vmem, ⟨4, _⟩ => ⟨S1x16x256x64, .f32⟩
  | .local _ .vmem, ⟨5, _⟩ => ⟨S1x16x256x64, .f32⟩
  | .local _ .vmem, ⟨6, _⟩ => ⟨S1x16x256x64, .f32⟩
  | .local _ .vmem, ⟨7, _⟩ => ⟨S1x16x256x64, .f32⟩
  | .local _ .vmem, ⟨8, _⟩ => ⟨S1x16x256x256, .f32⟩
  | .local _ .vmem, ⟨9, _⟩ => ⟨S1x16x256x256, .f32⟩
  | .local _ .vmem, ⟨10, _⟩ => ⟨S16x256x64, .f32⟩
  | .local _ .vmem, ⟨11, _⟩ => ⟨S16x256x64, .bf16⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v26 : BitVec 1 := Scalar.cmpi .eq arg2 c7_i32
  let v27 : BitVec 32 := Scalar.extui v26
  let c0_i32_23 : BitVec 32 := 0#32
  let v28 : BitVec 1 := Scalar.cmpi .ne v27 c0_i32_23
  v28

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg2.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x16x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x16x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x16x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x16x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  shapeCasts_S4x16x2048x64_S4x16x64x2048 : S4x16x2048x64.ShapeCasts S4x16x64x2048
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  inb_S1x16x256x64_S1x16x256x64_0_0_0_0 : ∀ a, (![0, 0, 0, 0] : Fin 4 → Nat) a + S1x16x256x64.size a ≤ S1x16x256x64.size a
  h_S1x16x256x64 : 0 < S1x16x256x64.numel
  shapeCasts_S1x16x256x64_S16x256x64 : S1x16x256x64.ShapeCasts S16x256x64
  bitsLt_bf16_f32 : FTy.bits .bf16 < FTy.bits .f32
  packedbf16_S16x256x64_S16x256x64_0_0_0 : (Rect.unit (s := S16x256x64) ![0, 0, 0] S16x256x64.size inb_S16x256x64_S16x256x64_0_0_0).PackedRows (EltTy.packing .bf16)
  inb_S1x16x64x256_S1x16x64x256_0_0_0_0 : ∀ a, (![0, 0, 0, 0] : Fin 4 → Nat) a + S1x16x64x256.size a ≤ S1x16x64x256.size a
  h_S1x16x64x256 : 0 < S1x16x64x256.numel
  shapeCasts_S1x16x64x256_S16x64x256 : S1x16x64x256.ShapeCasts S16x64x256
  reduces_S16x256x256_S256x256 : S16x256x256.Reduces [0] S256x256
  shapeCasts_S256x256_S1x256x256 : S256x256.ShapeCasts S1x256x256
  broadcasts_S1x256x256_S16x256x256 : S1x256x256.Broadcasts S16x256x256
  inb_S1x16x256x256_S1x16x256x256_0_0_0_0 : ∀ a, (![0, 0, 0, 0] : Fin 4 → Nat) a + S1x16x256x256.size a ≤ S1x16x256x256.size a
  h_S1x16x256x256 : 0 < S1x16x256x256.numel
  shapeCasts_S1x16x256x256_S16x256x256 : S1x16x256x256.ShapeCasts S16x256x256
  shapeCasts_S16x256x256_S1x16x256x256 : S16x256x256.ShapeCasts S1x16x256x256
  shapeCasts_S16x256x64_S1x16x256x64 : S16x256x64.ShapeCasts S1x16x256x64
  dot_S16x256x64_S16x64x256_S16x256x256_2_1_1_2_0_0_wf : DotDims.WF S16x256x64 S16x64x256 S16x256x256 [2] [1] [1] [2] [0] [0]
  dot_S16x256x256_S16x256x64_S16x256x64_2_1_1_2_0_0_wf : DotDims.WF S16x256x256 S16x256x64 S16x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x256x64.size a ≤ S4x16x2048x64.size a
  hwx0_0 : ∀ i : grid0.Coords, EltTy.bits .f32 = 32 ∨ (Rect.block (s := S4x16x2048x64) S1x16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x64x256.size a ≤ S4x16x64x2048.size a
  hwx0_1 : ∀ i : grid0.Coords, EltTy.bits .f32 = 32 ∨ (Rect.block (s := S4x16x64x2048) S1x16x64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x256x64.size a ≤ S4x16x2048x64.size a
  hwx0_2 : ∀ i : grid0.Coords, EltTy.bits .f32 = 32 ∨ (Rect.block (s := S4x16x2048x64) S1x16x256x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x256x64.size a ≤ S4x16x2048x64.size a
  hwx0_3 : ∀ i : grid0.Coords, EltTy.bits .f32 = 32 ∨ (Rect.block (s := S4x16x2048x64) S1x16x256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256x256.size a ≤ S4x16x2048x2048.size a
  hwx0_4 : ∀ i : grid0.Coords, EltTy.bits .f32 = 32 ∨ (Rect.block (s := S4x16x2048x2048) S1x16x256x256.size (cc0_transform_4 i) (hinb0_4 i)).WholeWords (EltTy.packing .f32)

variable [Facts₀]

def dot_S16x256x64_S16x64x256_S16x256x256_2_1_1_2_0_0 : DotDims S16x256x64 S16x64x256 S16x256x256 where
  lhsContracting := [2]
  rhsContracting := [1]
  lhsNonContracting := [1]
  rhsNonContracting := [2]
  lhsBatch := [0]
  rhsBatch := [0]
  wf := dot_S16x256x64_S16x64x256_S16x256x256_2_1_1_2_0_0_wf
def dot_S16x256x256_S16x256x64_S16x256x64_2_1_1_2_0_0 : DotDims S16x256x256 S16x256x64 S16x256x64 where
  lhsContracting := [2]
  rhsContracting := [1]
  lhsNonContracting := [1]
  rhsNonContracting := [2]
  lhsBatch := [0]
  rhsBatch := [0]
  wf := dot_S16x256x256_S16x256x64_S16x256x64_2_1_1_2_0_0_wf

abbrev win0_0 : Pipeline.Window sig grid0 :=
  Pipeline.Window.ofSpec (Memref.whole main_arg0) S1x16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x256x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x16x256x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x16x256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S4x16x2048x64 : Shape := ⟨4, ![4, 16, 2048, 64]⟩
abbrev S4x16x64x2048 : Shape := ⟨4, ![4, 16, 64, 2048]⟩
abbrev S4x16x2048x2048 : Shape := ⟨4, ![4, 16, 2048, 2048]⟩
abbrev S_ : Shape := ⟨0, ![]⟩
abbrev S4x2048x2048 : Shape := ⟨3, ![4, 2048, 2048]⟩
abbrev S4x1x2048x2048 : Shape := ⟨4, ![4, 1, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x64x2048, .f32⟩
  | .hbm, ⟨4, _⟩ => ⟨S4x16x2048x2048, .f32⟩
  | .hbm, ⟨5, _⟩ => ⟨S_, .f32⟩
  | .hbm, ⟨6, _⟩ => ⟨S4x16x2048x2048, .f32⟩
  | .hbm, ⟨7, _⟩ => ⟨S4x16x2048x2048, .f32⟩
  | .hbm, ⟨8, _⟩ => ⟨S_, .f32⟩
  | .hbm, ⟨9, _⟩ => ⟨S4x2048x2048, .f32⟩
  | .hbm, ⟨10, _⟩ => ⟨S_, .f32⟩
  | .hbm, ⟨11, _⟩ => ⟨S4x2048x2048, .f32⟩
  | .hbm, ⟨12, _⟩ => ⟨S4x2048x2048, .f32⟩
  | .hbm, ⟨13, _⟩ => ⟨S4x1x2048x2048, .f32⟩
  | .hbm, ⟨14, _⟩ => ⟨S4x16x2048x2048, .f32⟩
  | .hbm, ⟨15, _⟩ => ⟨S4x16x2048x2048, .f32⟩
  | .hbm, ⟨16, _⟩ => ⟨S4x16x2048x2048, .f32⟩
  | .hbm, ⟨17, _⟩ => ⟨S_, .f32⟩
  | .hbm, ⟨18, _⟩ => ⟨S4x2048x2048, .f32⟩
  | .hbm, ⟨19, _⟩ => ⟨S4x1x2048x2048, .f32⟩
  | .hbm, ⟨20, _⟩ => ⟨S4x16x2048x2048, .f32⟩
  | .hbm, ⟨21, _⟩ => ⟨S4x16x2048x2048, .f32⟩
  | .hbm, ⟨22, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S4x16x2048x64_S4x16x64x2048 : S4x16x2048x64.ShapeCasts S4x16x64x2048
  bcast_S_S4x16x2048x2048 : S_.BroadcastsInDim S4x16x2048x2048 (![] : Fin 0 → Fin S4x16x2048x2048.rank)
  reducesTo_S4x16x2048x2048_S4x2048x2048_d1 : S4x16x2048x2048.ReducesTo [1] S4x2048x2048
  h_S_ : 0 < S_.numel
  bcast_S_S4x2048x2048 : S_.BroadcastsInDim S4x2048x2048 (![] : Fin 0 → Fin S4x2048x2048.rank)
  bcast_S4x2048x2048_S4x1x2048x2048_0_2_3 : S4x2048x2048.BroadcastsInDim S4x1x2048x2048 (![0, 2, 3] : Fin 3 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  dot_S4x16x2048x64_S4x16x64x2048_S4x16x2048x2048_3_2_2_3_01_01_wf : DotDims.WF S4x16x2048x64 S4x16x64x2048 S4x16x2048x2048 [3] [2] [2] [3] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x64x2048_S4x16x2048x2048_3_2_2_3_01_01 : DotDims S4x16x2048x64 S4x16x64x2048 S4x16x2048x2048 where
  lhsContracting := [3]
  rhsContracting := [2]
  lhsNonContracting := [2]
  rhsNonContracting := [3]
  lhsBatch := [0, 1]
  rhsBatch := [0, 1]
  wf := dot_S4x16x2048x64_S4x16x64x2048_S4x16x2048x2048_3_2_2_3_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.CasePieces.lean ====
/- What each control case of the attention body leaves behind, as values.

   The body runs in three cases along the key-tile axis: at the first key tile it clears the accumulator and
   caches the scaled query tile; at every tile it writes the head-softmax of the tile's logits and adds the
   tile's contribution to the accumulator; at the last tile it also copies the accumulator to the result block.
   Each buffer's contents after a case is one arithmetic term of the blocks the case read. -/
import proofs.«130526_j39900246180154_2_alg».proof.Proof.Gen.KernelIdeal.Frame
import Idealize.ShloMosaic.Lib.Pipeline.Value
import Idealize.ShloMosaic.Lib.Tactic

set_option maxRecDepth 16384

noncomputable section

namespace Cert.HeadAttn.Pieces

open Idealize.ShloMosaic Idealize.ShloMosaic.TcCoe Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## A middle key tile -/

/-- The attention block is the head-softmax of the cached scaled queries against the key block. -/
theorem attn_B (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : ¬cond0_0 i) (hc1 : ¬cond0_1 i) (x0 : Vec F S1x16x256x64 .f32) (x1 : Vec F S1x16x64x256 .f32) (x2 : Vec F S1x16x256x64 .f32) (xs0 : Vec F S16x256x64 .f32) (xs1 : Vec F S16x256x64 .bf16) :
    out0_B_4 c i arg3 harg3 arg4 harg4 arg5 harg5 arg6 harg6 arg7 harg7 arg8 harg8 arg9 harg9 hc0 hc1 x0 x1 x2 xs0 xs1 = k0_pay5 xs1 x1 := by
  unfold out0_B_4
  rw [View.read_writes_eq_canon _ _ _ (cover0_B_4 c i arg3 harg3 arg4 harg4 arg5 harg5 arg6 harg6 arg7 harg7 arg8 harg8 arg9 harg9 hc0 hc1 x0 x1 x2 xs0 xs1)]
  unfold kernelRun0_B
  dsimp only
  rw [View.canon_unit_zero hz4]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

/-- The accumulator gains the tile's attention contracted with the value block. -/
theorem acc_B (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : ¬cond0_0 i) (hc1 : ¬cond0_1 i) (x0 : Vec F S1x16x256x64 .f32) (x1 : Vec F S1x16x64x256 .f32) (x2 : Vec F S1x16x256x64 .f32) (xs0 : Vec F S16x256x64 .f32) (xs1 : Vec F S16x256x64 .bf16) :
    sout0_B_0 c i arg3 harg3 arg4 harg4 arg5 harg5 arg6 harg6 arg7 harg7 arg8 harg8 arg9 harg9 hc0 hc1 x0 x1 x2 xs0 xs1 = k0_pay6 xs1 x1 x2 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1)]
  unfold kernelRun0_B
  dsimp only
  rw [View.canon_unit_zero hz3]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

/-! ## The last key tile -/

theorem attn_C (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : ¬cond0_0 i) (hc1 : cond0_1 i) (x0 : Vec F S1x16x256x64 .f32) (x1 : Vec F S1x16x64x256 .f32) (x2 : Vec F S1x16x256x64 .f32) (xs0 : Vec F S16x256x64 .f32) (xs1 : Vec F S16x256x64 .bf16) :
    out0_C_4 c i arg3 harg3 arg4 harg4 arg5 harg5 arg6 harg6 arg7 harg7 arg8 harg8 arg9 harg9 hc0 hc1 x0 x1 x2 xs0 xs1 = k0_pay5 xs1 x1 := by
  unfold out0_C_4
  rw [View.read_writes_eq_canon _ _ _ (cover0_C_4 c i arg3 harg3 arg4 harg4 arg5 harg5 arg6 harg6 arg7 harg7 arg8 harg8 arg9 harg9 hc0 hc1 x0 x1 x2 xs0 xs1)]
  unfold kernelRun0_C
  dsimp only
  rw [View.canon_unit_zero hz4]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

theorem acc_C (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : ¬cond0_0 i) (hc1 : cond0_1 i) (x0 : Vec F S1x16x256x64 .f32) (x1 : Vec F S1x16x64x256 .f32) (x2 : Vec F S1x16x256x64 .f32) (xs0 : Vec F S16x256x64 .f32) (xs1 : Vec F S16x256x64 .bf16) :
    sout0_C_0 c i arg3 harg3 arg4 harg4 arg5 harg5 arg6 harg6 arg7 harg7 arg8 harg8 arg9 harg9 hc0 hc1 x0 x1 x2 xs0 xs1 = k0_pay6 xs1 x1 x2 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz3]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

/-- The result block is the accumulator as the tile leaves it. -/
theorem res_C (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : ¬cond0_0 i) (hc1 : cond0_1 i) (x0 : Vec F S1x16x256x64 .f32) (x1 : Vec F S1x16x64x256 .f32) (x2 : Vec F S1x16x256x64 .f32) (xs0 : Vec F S16x256x64 .f32) (xs1 : Vec F S16x256x64 .bf16) :
    out0_C_3 c i arg3 harg3 arg4 harg4 arg5 harg5 arg6 harg6 arg7 harg7 arg8 harg8 arg9 harg9 hc0 hc1 x0 x1 x2 xs0 xs1 = k0_pay1 (k0_pay6 xs1 x1 x2 xs0) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1)]
  unfold kernelRun0_C
  dsimp only
  sl_unfold_words
  rw [View.canon_unit_zero hz4, View.readCov_unit_zero (S := S16x256x64) _ hz3]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

/-! ## The first key tile -/

theorem qcache_A (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : cond0_0 i) (hc1 : ¬cond0_1 i) (x0 : Vec F S1x16x256x64 .f32) (x1 : Vec F S1x16x64x256 .f32) (x2 : Vec F S1x16x256x64 .f32) :
    sout0_A_1 c i arg3 harg3 arg4 harg4 arg5 harg5 arg6 harg6 arg7 harg7 arg8 harg8 arg9 harg9 hc0 hc1 x0 x1 x2 = k0_pay3 x0 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_unit_zero hz3]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

theorem attn_A (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : cond0_0 i) (hc1 : ¬cond0_1 i) (x0 : Vec F S1x16x256x64 .f32) (x1 : Vec F S1x16x64x256 .f32) (x2 : Vec F S1x16x256x64 .f32) :
    out0_A_4 c i arg3 harg3 arg4 harg4 arg5 harg5 arg6 harg6 arg7 harg7 arg8 harg8 arg9 harg9 hc0 hc1 x0 x1 x2 = k0_pay5 (k0_pay3 x0) x1 := by
  unfold out0_A_4
  rw [View.read_writes_eq_canon _ _ _ (cover0_A_4 c i arg3 harg3 arg4 harg4 arg5 harg5 arg6 harg6 arg7 harg7 arg8 harg8 arg9 harg9 hc0 hc1 x0 x1 x2)]
  unfold kernelRun0_A
  dsimp only
  sl_unfold_words
  rw [View.canon_unit_zero hz4, View.readCov_unit_zero (S := S16x256x64) _ hz3]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

theorem acc_A (c : Dev nD) (i : grid0.Coords) (arg3 : Memref sig .tc .vmem S1x16x256x64 .f32) (harg3 : arg3.IsWhole) (arg4 : Memref sig .tc .vmem S1x16x64x256 .f32) (harg4 : arg4.IsWhole) (arg5 : Memref sig .tc .vmem S1x16x256x64 .f32) (harg5 : arg5.IsWhole) (arg6 : Memref sig .tc .vmem S1x16x256x64 .f32) (harg6 : arg6.IsWhole) (arg7 : Memref sig .tc .vmem S1x16x256x256 .f32) (harg7 : arg7.IsWhole) (arg8 : Memref sig .tc .vmem S16x256x64 .f32) (harg8 : arg8.IsWhole) (arg9 : Memref sig .tc .vmem S16x256x64 .bf16) (harg9 : arg9.IsWhole) (hc0 : cond0_0 i) (hc1 : ¬cond0_1 i) (x0 : Vec F S1x16x256x64 .f32) (x1 : Vec F S1x16x64x256 .f32) (x2 : Vec F S1x16x256x64 .f32) :
    sout0_A_0 c i arg3 harg3 arg4 harg4 arg5 harg5 arg6 harg6 arg7 harg7 arg8 harg8 arg9 harg9 hc0 hc1 x0 x1 x2 = k0_pay6 (k0_pay3 x0) x1 x2 k0_pay2 := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero (S := S16x256x64) hz3]
  simp only [View.readCov_unit_zero (S := S16x256x64) _ hz3]
  simp only [View.readAt_eq_ld, harg3.read_unread, harg4.read_unread, harg5.read_unread, harg8.read_unread, harg9.read_unread, View.ld_unit_zero (S := S16x256x64) hz3, View.ld_unit_zero (S := S1x16x64x256) hz4, View.ld_unit_zero (S := S1x16x256x64) hz4]

end Cert.HeadAttn.Pieces

end
-- ==== Proof.PointValues.lean ====
/- What the staging buffers and the two carried scratch buffers hold after each grid point, as arithmetic terms
   of the point's blocks and of what the point before left: the first key tile of a run of eight starts the
   accumulator from zero and caches the scaled queries; the later tiles add to the accumulator and keep the cache;
   the last tile also hands the accumulator to the result block. -/
import proofs.«130526_j39900246180154_2_alg».proof.Proof.CasePieces

set_option maxRecDepth 16384

noncomputable section

namespace Cert.HeadAttn.Points

open Idealize.ShloMosaic Idealize.ShloMosaic.TcCoe Idealize.SL.Sem
open Cert.KernelIdeal Cert.KernelIdeal.Gen Cert.HeadAttn.Pieces

variable {F : FTy → Type} [FloatOps F]
variable (m : (ℓ : Loc nD τ sig) → Buf (Elt F) ℓ)

/-- The first key tile of a run: attention of the freshly scaled queries, the accumulator from zero, the cache. -/
theorem first_tile (c : Dev nD) (t : Fin cfg0.N) (h0 : t.val % 8 = 0) (h1 : ¬t.val % 8 = 7) :
    (outsAt0 m c t.val t.isLt).2.1 = k0_pay5 (k0_pay3 (iblk m c 0 t)) (iblk m c 1 t)
    ∧ (outsAt0 m c t.val t.isLt).2.2.1 = k0_pay6 (k0_pay3 (iblk m c 0 t)) (iblk m c 1 t) (iblk m c 2 t) k0_pay2
    ∧ (outsAt0 m c t.val t.isLt).2.2.2 = k0_pay3 (iblk m c 0 t) := by
  rw [outsAt0_A m c t h0 h1]
  dsimp only
  exact ⟨attn_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t),
    acc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t),
    qcache_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t)⟩

/-- A middle key tile: attention of the cached queries, the accumulator extended, the cache kept. -/
theorem middle_tile (c : Dev nD) (t : Fin cfg0.N) (h0 : ¬t.val % 8 = 0) (h1 : ¬t.val % 8 = 7) :
    (outsAt0 m c t.val t.isLt).2.1 = k0_pay5 (outsAt0 m c (t.val - 1) (Nat.lt_of_le_of_lt (Nat.sub_le _ _) t.isLt)).2.2.2 (iblk m c 1 t)
    ∧ (outsAt0 m c t.val t.isLt).2.2.1 = k0_pay6 (outsAt0 m c (t.val - 1) (Nat.lt_of_le_of_lt (Nat.sub_le _ _) t.isLt)).2.2.2 (iblk m c 1 t) (iblk m c 2 t) (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0 h1]
  dsimp only
  exact ⟨attn_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    acc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    rfl⟩

/-- The last key tile: as a middle tile, and the result block is the accumulator as the tile leaves it. -/
theorem last_tile (c : Dev nD) (t : Fin cfg0.N) (h0 : ¬t.val % 8 = 0) (h1 : t.val % 8 = 7) :
    (outsAt0 m c t.val t.isLt).1 = k0_pay1 (k0_pay6 (outsAt0 m c (t.val - 1) (Nat.lt_of_le_of_lt (Nat.sub_le _ _) t.isLt)).2.2.2 (iblk m c 1 t) (iblk m c 2 t) (outsAt0 m c (t.val - 1) (Nat.lt_of_le_of_lt (Nat.sub_le _ _) t.isLt)).2.2.1)
    ∧ (outsAt0 m c t.val t.isLt).2.1 = k0_pay5 (outsAt0 m c (t.val - 1) (Nat.lt_of_le_of_lt (Nat.sub_le _ _) t.isLt)).2.2.2 (iblk m c 1 t)
    ∧ (outsAt0 m c t.val t.isLt).2.2.1 = k0_pay6 (outsAt0 m c (t.val - 1) (Nat.lt_of_le_of_lt (Nat.sub_le _ _) t.isLt)).2.2.2 (iblk m c 1 t) (iblk m c 2 t) (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_C m c t h0 h1]
  dsimp only
  exact ⟨res_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    attn_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    rfl⟩

end Cert.HeadAttn.Points

end
-- ==== Proof.BlockReads.lean ====
/- The blocks the attention body reads, as entries of the whole arrays.

   Grid point number t stands for batch t / 64, query tile (t / 8) % 8 and key tile t % 8. At that point the
   query block holds rows 256·(query tile) … of the batch's queries for all sixteen heads, the key block holds
   columns 256·(key tile) … of the re-read keys, and the value block holds rows 256·(key tile) … of the values. -/
import proofs.«130526_j39900246180154_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.HeadAttn.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block index of every window at every grid point, in closed form: the batch is t / 64, the query tile
    (t / 8) % 8, the key tile t % 8; the head and feature axes are never tiled. -/
theorem idx_facts : ∀ t : Fin cfg0.N,
    (win0_0.index t (0 : Fin 4) = t.val / 64 ∧ win0_0.index t (1 : Fin 4) = 0 ∧ win0_0.index t (2 : Fin 4) = t.val / 8 % 8 ∧ win0_0.index t (3 : Fin 4) = 0)
    ∧ (win0_1.index t (0 : Fin 4) = t.val / 64 ∧ win0_1.index t (1 : Fin 4) = 0 ∧ win0_1.index t (2 : Fin 4) = 0 ∧ win0_1.index t (3 : Fin 4) = t.val % 8)
    ∧ (win0_2.index t (0 : Fin 4) = t.val / 64 ∧ win0_2.index t (1 : Fin 4) = 0 ∧ win0_2.index t (2 : Fin 4) = t.val % 8 ∧ win0_2.index t (3 : Fin 4) = 0)
    ∧ (win0_3.index t (0 : Fin 4) = t.val / 64 ∧ win0_3.index t (1 : Fin 4) = 0 ∧ win0_3.index t (2 : Fin 4) = t.val / 8 % 8 ∧ win0_3.index t (3 : Fin 4) = 0)
    ∧ (win0_4.index t (0 : Fin 4) = t.val / 64 ∧ win0_4.index t (1 : Fin 4) = 0 ∧ win0_4.index t (2 : Fin 4) = t.val / 8 % 8 ∧ win0_4.index t (3 : Fin 4) = t.val % 8) :=
  (by decide +kernel : ∀ t : Fin grid0.N, _)

/-- Row 256·i + r of a 2048-row axis, for tile i < 8 and r < 256. -/
abbrev row (i : ℕ) (hi : i < 8) (r : Fin 256) : Fin 2048 := ⟨256 * i + r.val, by have := r.isLt; omega⟩

theorem batch_lt (t : Fin cfg0.N) : t.val / 64 < 4 := by
  have h := lt_of_lt_of_eq t.isLt (show cfg0.N = 256 from N_0); omega
theorem qtile_lt (t : Fin cfg0.N) : t.val / 8 % 8 < 8 := Nat.mod_lt _ (by norm_num)
theorem ktile_lt (t : Fin cfg0.N) : t.val % 8 < 8 := Nat.mod_lt _ (by norm_num)

/-- The query block at a point: rows of the point's query tile, all heads, of the point's batch. -/
theorem qblk (c : Dev nD) (t : Fin cfg0.N) (h : Fin 16) (r : Fin 256) (d : Fin 64) :
    (iblk m c 0 t : Vec F S1x16x256x64 .f32) (ix4 0 h r d)
      = V m c main_arg0 (ix4 ⟨t.val / 64, batch_lt t⟩ h (row (t.val / 8 % 8) (qtile_lt t) r) d) := by
  obtain ⟨⟨e0, e1, e2, e3⟩, -⟩ := idx_facts t
  unfold iblk
  rw [View.read_apply]
  show V m c main_arg0 (((cfg0.win 0).blk t).view.emb (ix4 0 h r d)) = V m c main_arg0 _
  congr 1
  funext a
  apply Fin.ext
  match a with
  | ⟨0, _⟩ => show win0_0.index t (0 : Fin 4) * 1 + 1 * 0 = t.val / 64; omega
  | ⟨1, _⟩ => show win0_0.index t (1 : Fin 4) * 16 + 1 * h.val = h.val; omega
  | ⟨2, _⟩ => show win0_0.index t (2 : Fin 4) * 256 + 1 * r.val = 256 * (t.val / 8 % 8) + r.val; omega
  | ⟨3, _⟩ => show win0_0.index t (3 : Fin 4) * 64 + 1 * d.val = d.val; omega

/-- The key block at a point: columns of the point's key tile of the re-read keys. -/
theorem kblk (c : Dev nD) (t : Fin cfg0.N) (h : Fin 16) (d : Fin 64) (s : Fin 256) :
    (iblk m c 1 t : Vec F S1x16x64x256 .f32) (ix4 0 h d s)
      = V m c main_v0 (ix4 ⟨t.val / 64, batch_lt t⟩ h d (row (t.val % 8) (ktile_lt t) s)) := by
  obtain ⟨-, ⟨e0, e1, e2, e3⟩, -⟩ := idx_facts t
  unfold iblk
  rw [View.read_apply]
  show V m c main_v0 (((cfg0.win 1).blk t).view.emb (ix4 0 h d s)) = V m c main_v0 _
  congr 1
  funext a
  apply Fin.ext
  match a with
  | ⟨0, _⟩ => show win0_1.index t (0 : Fin 4) * 1 + 1 * 0 = t.val / 64; omega
  | ⟨1, _⟩ => show win0_1.index t (1 : Fin 4) * 16 + 1 * h.val = h.val; omega
  | ⟨2, _⟩ => show win0_1.index t (2 : Fin 4) * 64 + 1 * d.val = d.val; omega
  | ⟨3, _⟩ => show win0_1.index t (3 : Fin 4) * 256 + 1 * s.val = 256 * (t.val % 8) + s.val; omega

/-- The value block at a point: rows of the point's key tile of the values. -/
theorem vblk (c : Dev nD) (t : Fin cfg0.N) (h : Fin 16) (s : Fin 256) (d : Fin 64) :
    (iblk m c 2 t : Vec F S1x16x256x64 .f32) (ix4 0 h s d)
      = V m c main_arg2 (ix4 ⟨t.val / 64, batch_lt t⟩ h (row (t.val % 8) (ktile_lt t) s) d) := by
  obtain ⟨-, -, ⟨e0, e1, e2, e3⟩, -⟩ := idx_facts t
  unfold iblk
  rw [View.read_apply]
  show V m c main_arg2 (((cfg0.win 2).blk t).view.emb (ix4 0 h s d)) = V m c main_arg2 _
  congr 1
  funext a
  apply Fin.ext
  match a with
  | ⟨0, _⟩ => show win0_2.index t (0 : Fin 4) * 1 + 1 * 0 = t.val / 64; omega
  | ⟨1, _⟩ => show win0_2.index t (1 : Fin 4) * 16 + 1 * h.val = h.val; omega
  | ⟨2, _⟩ => show win0_2.index t (2 : Fin 4) * 256 + 1 * s.val = 256 * (t.val % 8) + s.val; omega
  | ⟨3, _⟩ => show win0_2.index t (3 : Fin 4) * 64 + 1 * d.val = d.val; omega

/-- The array the key window reads is the keys re-read row-major as [4, 16, 64, 2048]. -/
theorem keys_reread (c : Dev nD) :
    (V m c main_v0 : S4x16x64x2048.Idx → Elt F .f32)
      = shapeCast S4x16x64x2048 (m ((c : Thread nD τ).loc main_arg1)) shapeCasts_S4x16x2048x64_S4x16x64x2048 := by
  dsimp only [Gen.V, Gen.hostOps0]
  after_results
  rfl

end Cert.HeadAttn.Blocks

end
-- ==== Proof.HeadAttention.lean ====
/- Attention whose softmax runs over the HEAD axis, stated index by index.

   For arrays q, k, v of shape [4, 16, 2048, 64] (batch, head, position, feature) the keys are first re-read
   row-major as [4, 16, 64, 2048] (a reshape of the flat buffer, not a transpose); the logit of query position i
   against key column j in head h is the sum over the 64 features of (q / 8) times the re-read key; its weight is
   the exponential; the attention is the weight divided by the sum of the weights of the SIXTEEN HEADS at the same
   (batch, i, j); and the result is the attention contracted with v over the 2048 key positions. -/
import Idealize.ShloMosaic.PureOps.Ideal
import Idealize.ShloMosaic.PureOps.Ideal.Laws
import Idealize.ShloMosaic.Lib.ValueIdx

noncomputable section

open scoped BigOperators

namespace Cert.HeadAttn

open Idealize.ShloMosaic Idealize.ShloMosaic.ValueIdx

/-- Queries, keys, values and the result: [batch, head, position, feature]. -/
abbrev QKV : Shape := ⟨4, ![4, 16, 2048, 64]⟩
/-- The attention array: [batch, head, query position, key position]. -/
abbrev ATT : Shape := ⟨4, ![4, 16, 2048, 2048]⟩

/-- Every entry of an array is a real number (neither infinity). -/
def Finite {s : Shape} (x : s.Idx → EReal) : Prop := ∀ i, ∃ r : ℝ, x i = (r : EReal)

/-- The keys re-read row-major as [4, 16, 64, 2048]: entry (d, s) of a head's 64 × 2048 matrix is entry number
    2048 d + s of that head's flat 2048 × 64 buffer. -/
def keyT (k : QKV.Idx → EReal) (b : Fin 4) (h : Fin 16) (d : Fin 64) (s : Fin 2048) : EReal :=
  k (ix4 b h ⟨(d.val * 2048 + s.val) / 64, by have := d.isLt; have := s.isLt; omega⟩
    ⟨(d.val * 2048 + s.val) % 64, Nat.mod_lt _ (by norm_num)⟩)

/-- One eighth, 1/√64, as the exact binary value 2⁻³. -/
abbrev eighth : EReal := Ideal.ofBits .f32 0x3E000000#32

/-- The logit: the scaled query row against the re-read key column. -/
def logit (q k : QKV.Idx → EReal) (b : Fin 4) (h : Fin 16) (i j : Fin 2048) : EReal :=
  ∑ d : Fin 64, (q (ix4 b h i d) * eighth) * keyT k b h d j

/-- Its exponential. -/
def weight (q k : QKV.Idx → EReal) (b : Fin 4) (h : Fin 16) (i j : Fin 2048) : EReal :=
  Ideal.exp (logit q k b h i j)

/-- The softmax over the sixteen heads. -/
def attn (q k : QKV.Idx → EReal) (b : Fin 4) (h : Fin 16) (i j : Fin 2048) : EReal :=
  Ideal.div (weight q k b h i j) (∑ h' : Fin 16, weight q k b h' i j)

/-- The attention contracted with the values over the key positions. -/
def out (q k v : QKV.Idx → EReal) (b : Fin 4) (h : Fin 16) (i : Fin 2048) (d : Fin 64) : EReal :=
  ∑ j : Fin 2048, attn q k b h i j * v (ix4 b h j d)

/-- The attention as an array. -/
def attnArr (q k : QKV.Idx → EReal) : ATT.Idx → EReal := fun y => attn q k (y 0) (y 1) (y 2) (y 3)

/-- The result as an array. -/
def outArr (q k v : QKV.Idx → EReal) : QKV.Idx → EReal := fun y => out q k v (y 0) (y 1) (y 2) (y 3)

end Cert.HeadAttn

end
-- ==== Proof.TileScale.lean ====
/- The kernel body's pointwise tiles read at an index, over the extended reals: the scaled query tile, the zero tile the
   accumulator starts from, and the result tile (the accumulator with a unit batch axis in front). -/
import proofs.«130526_j39900246180154_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«130526_j39900246180154_2_alg».proof.Proof.HeadAttention

noncomputable section

open scoped BigOperators

namespace Cert.HeadAttn.Tile

open Idealize.ShloMosaic Idealize.ShloMosaic.ValueIdx
open Cert.KernelIdeal Cert.KernelIdeal.Gen

/-- The scaled query tile: the query block with its unit batch axis dropped, times one eighth. -/
theorem pay3_apply (x : Vec Ideal S1x16x256x64 .f32) (h : Fin 16) (r : Fin 256) (d : Fin 64) :
    k0_pay3 x (ix3 h r d) = x (ix4 0 h r d) * Cert.HeadAttn.eighth := by
  unfold k0_pay3
  rw [shapeCast_self]
  show (shapeCast S16x256x64 x shapeCasts_S1x16x256x64_S16x256x64) (ix3 h r d) * _ = _
  rw [shapeCast_1abc_abc_apply]
  rfl

/-- The accumulator's start: the zero tile. -/
theorem pay2_apply (h : Fin 16) (r : Fin 256) (d : Fin 64) : k0_pay2 (F := Ideal) (ix3 h r d) = 0 := by
  unfold k0_pay2
  rw [shapeCast_self]
  exact Ideal.ofBits_zero_f32

/-- The result tile: the accumulator with a unit batch axis put in front. -/
theorem pay1_apply (acc : Vec Ideal S16x256x64 .f32) (h : Fin 16) (r : Fin 256) (d : Fin 64) :
    k0_pay1 acc (ix4 0 h r d) = acc (ix3 h r d) := by
  unfold k0_pay1
  exact shapeCast_abc_1abc_apply acc _ 0 h r d

end Cert.HeadAttn.Tile

end
-- ==== Proof.TileArithmetic.lean ====
/- The kernel body's arithmetic read at an index, over the extended reals. The logits tile is the head-by-head product of
   the scaled query tile [16, 256, 64] with the key tile [16, 64, 256]; the attention tile is its exponential divided by
   the exponentials' sum over the sixteen heads; the accumulator's update adds the head-by-head product of the attention
   tile with the value tile [16, 256, 64]. Each product is a sum over its one contracted axis; the sum over heads is a sum
   over the leading axis; the layout changes (a unit batch axis dropped or added, the head sum spread back over the heads)
   only rename indices. -/
import proofs.«130526_j39900246180154_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«130526_j39900246180154_2_alg».proof.Proof.HeadAttention
import proofs.«130526_j39900246180154_2_alg».proof.Proof.TileScale

noncomputable section

open scoped BigOperators

namespace Cert.HeadAttn.Tile

open Idealize.ShloMosaic Idealize.ShloMosaic.ValueIdx
open Cert.KernelIdeal Cert.KernelIdeal.Gen

/-- The dimension numbers of the logits' product: contract the left operand's last axis with the right operand's middle
    axis, head by head. -/
abbrev DQK : DotDims S16x256x64 S16x64x256 S16x256x256 := dot_S16x256x64_S16x64x256_S16x256x256_2_1_1_2_0_0

theorem lhsQK_0 (i : S16x256x256.Idx) (q : DQK.contr.Idx) : (DQK.lhsIdx i q 0).val = (i 0).val := by
  unfold DotDims.lhsIdx
  rw [dif_pos (show (0 : Fin S16x256x64.rank) ∈ DQK.lhsBatch by decide)]
  rfl
theorem lhsQK_1 (i : S16x256x256.Idx) (q : DQK.contr.Idx) : (DQK.lhsIdx i q 1).val = (i 1).val := by
  unfold DotDims.lhsIdx
  rw [dif_neg (show ¬(1 : Fin S16x256x64.rank) ∈ DQK.lhsBatch by decide), dif_pos (show (1 : Fin S16x256x64.rank) ∈ DQK.lhsNonContracting by decide)]
  rfl
theorem lhsQK_2 (i : S16x256x256.Idx) (q : DQK.contr.Idx) : (DQK.lhsIdx i q 2).val = (q ⟨0, by decide⟩).val :=
  DQK.lhsIdx_val_of_single rfl i q
theorem rhsQK_0 (i : S16x256x256.Idx) (q : DQK.contr.Idx) : (DQK.rhsIdx i q 0).val = (i 0).val := by
  unfold DotDims.rhsIdx
  rw [dif_pos (show (0 : Fin S16x64x256.rank) ∈ DQK.rhsBatch by decide)]
  rfl
theorem rhsQK_1 (i : S16x256x256.Idx) (q : DQK.contr.Idx) : (DQK.rhsIdx i q 1).val = (q ⟨0, by decide⟩).val :=
  DQK.rhsIdx_val_of_single rfl i q
theorem rhsQK_2 (i : S16x256x256.Idx) (q : DQK.contr.Idx) : (DQK.rhsIdx i q 2).val = (i 2).val := by
  unfold DotDims.rhsIdx
  rw [dif_neg (show ¬(2 : Fin S16x64x256.rank) ∈ DQK.rhsBatch by decide), dif_pos (show (2 : Fin S16x64x256.rank) ∈ DQK.rhsNonContracting by decide)]
  rfl

/-- The head-by-head product of a [16, 256, 64] and a [16, 64, 256] array into the zero tile, at (h, r, c): the sum over
    the 64 features of left (h, r, d) times right (h, d, c). -/
theorem matmulQK_apply (a : FVec Ideal S16x256x64 .bf16) (b : FVec Ideal S16x64x256 .bf16)
    (h : Fin 16) (r : Fin 256) (c : Fin 256) :
    matmul (F := Ideal) DQK none a b (constant (F := Ideal) S16x256x256 .f32 0x00000000#32) (ix3 h r c)
      = ∑ d : Fin 64, a (ix3 h r d) * b (ix3 h d c) := by
  simp only [matmul]
  rw [Ideal.matmul_constant_zero_apply, ← Equiv.sum_comp (contrEquiv1 DQK 64 rfl rfl).symm]
  refine Finset.sum_congr rfl fun k _ => ?_
  have hk := contrEquiv1_symm_val DQK 64 rfl rfl k
  have el : DQK.lhsIdx (ix3 h r c) ((contrEquiv1 DQK 64 rfl rfl).symm k) = ix3 h r k := funext fun x => Fin.ext (by
    match x with
    | ⟨0, _⟩ => exact lhsQK_0 _ _
    | ⟨1, _⟩ => exact lhsQK_1 _ _
    | ⟨2, _⟩ => exact (lhsQK_2 _ _).trans hk)
  have er : DQK.rhsIdx (ix3 h r c) ((contrEquiv1 DQK 64 rfl rfl).symm k) = ix3 h k c := funext fun x => Fin.ext (by
    match x with
    | ⟨0, _⟩ => exact rhsQK_0 _ _
    | ⟨1, _⟩ => exact (rhsQK_1 _ _).trans hk
    | ⟨2, _⟩ => exact rhsQK_2 _ _)
  rw [el, er]

/-- The logits tile: the scaled query tile against the key tile (its unit batch axis dropped), head by head. -/
def logits (qb : FVec Ideal S16x256x64 .bf16) (kb : FVec Ideal S1x16x64x256 .f32) : FVec Ideal S16x256x256 .f32 :=
  matmul (F := Ideal) DQK none qb
    (truncf .bf16 (shapeCast S16x64x256 kb shapeCasts_S1x16x64x256_S16x64x256) bitsLt_bf16_f32)
    (constant (F := Ideal) S16x256x256 .f32 0x00000000#32)

/-- A logit is the sum over the 64 features of the scaled query times the key. -/
theorem logits_apply (qb : Vec Ideal S16x256x64 .bf16) (kb : Vec Ideal S1x16x64x256 .f32)
    (h : Fin 16) (r : Fin 256) (c : Fin 256) :
    logits qb kb (ix3 h r c) = ∑ d : Fin 64, qb (ix3 h r d) * kb (ix4 0 h d c) := by
  unfold logits
  refine (matmulQK_apply qb _ h r c).trans ?_
  refine Finset.sum_congr rfl fun d _ => congrArg (qb (ix3 h r d) * ·) ?_
  exact shapeCast_1abc_abc_apply kb _ h d c

/-- The sum over the sixteen heads of a [16, 256, 256] tile, at (r, c). -/
theorem headSum_apply (x : FVec Ideal S16x256x256 .f32) (r c : Fin 256) :
    multiReduction (F := Ideal) .add [0] S256x256 x 0x00000000#32 reduces_S16x256x256_S256x256 (.inl rfl) rfl (ix2 r c)
      = ∑ h' : Fin 16, x (ix3 h' r c) := by
  refine (Ideal.multiReduction_add_single x 0x00000000#32 reduces_S16x256x256_S256x256 (.inl rfl) rfl (ix2 r c)).trans ?_
  refine Finset.sum_congr rfl fun k _ => congrArg x ?_
  funext a
  refine Fin.ext ?_
  match a with
  | ⟨0, _⟩ => rfl
  | ⟨1, _⟩ => rfl
  | ⟨2, _⟩ => rfl

/-- The attention tile is the exponential of the logits divided by its sum over the heads, spread back over the heads. -/
theorem pay4_eq (qb : Vec Ideal S16x256x64 .bf16) (kb : Vec Ideal S1x16x64x256 .f32) :
    k0_pay4 qb kb = divf (exp (logits qb kb))
      (broadcastTo S16x256x256
        (shapeCast S1x256x256
          (multiReduction (F := Ideal) .add [0] S256x256 (exp (logits qb kb)) 0x00000000#32 reduces_S16x256x256_S256x256 (.inl rfl) rfl)
          shapeCasts_S256x256_S1x256x256)
        broadcasts_S1x256x256_S16x256x256) := rfl

/-- The attention tile at (h, r, c): the exponential of the logit over the sum of the sixteen heads' exponentials. -/
theorem pay4_apply (qb : Vec Ideal S16x256x64 .bf16) (kb : Vec Ideal S1x16x64x256 .f32)
    (h : Fin 16) (r : Fin 256) (c : Fin 256) :
    k0_pay4 qb kb (ix3 h r c)
      = Ideal.div (Ideal.exp (∑ d : Fin 64, qb (ix3 h r d) * kb (ix4 0 h d c)))
          (∑ h' : Fin 16, Ideal.exp (∑ d : Fin 64, qb (ix3 h' r d) * kb (ix4 0 h' d c))) := by
  rw [pay4_eq, divf_apply]
  refine congrArg₂ Ideal.div ?_ ?_
  · show Ideal.exp (logits qb kb (ix3 h r c)) = _
    rw [logits_apply]
  · refine (broadcastTo_apply _ _ (ix3 h r c) (ix3 (0 : Fin 1) r c) ?_).trans ?_
    · intro a
      match a with
      | ⟨0, _⟩ => rfl
      | ⟨1, _⟩ => rfl
      | ⟨2, _⟩ => rfl
    refine (shapeCast_ab_1ab_apply _ _ 0 r c).trans ?_
    refine (headSum_apply _ r c).trans ?_
    refine Finset.sum_congr rfl fun h' _ => ?_
    show Ideal.exp (logits qb kb (ix3 h' r c)) = _
    rw [logits_apply]

/-- The attention block as stored: the attention tile with a unit batch axis in front. -/
theorem pay5_apply (qb : Vec Ideal S16x256x64 .bf16) (kb : Vec Ideal S1x16x64x256 .f32)
    (h : Fin 16) (r : Fin 256) (c : Fin 256) :
    k0_pay5 qb kb (ix4 0 h r c) = k0_pay4 qb kb (ix3 h r c) := by
  unfold k0_pay5
  exact shapeCast_abc_1abc_apply _ _ 0 h r c

/-- The dimension numbers of the product with the values: contract the attention's last axis with the values' middle
    axis, head by head. -/
abbrev DAV : DotDims S16x256x256 S16x256x64 S16x256x64 := dot_S16x256x256_S16x256x64_S16x256x64_2_1_1_2_0_0

theorem lhsAV_0 (i : S16x256x64.Idx) (q : DAV.contr.Idx) : (DAV.lhsIdx i q 0).val = (i 0).val := by
  unfold DotDims.lhsIdx
  rw [dif_pos (show (0 : Fin S16x256x256.rank) ∈ DAV.lhsBatch by decide)]
  rfl
theorem lhsAV_1 (i : S16x256x64.Idx) (q : DAV.contr.Idx) : (DAV.lhsIdx i q 1).val = (i 1).val := by
  unfold DotDims.lhsIdx
  rw [dif_neg (show ¬(1 : Fin S16x256x256.rank) ∈ DAV.lhsBatch by decide), dif_pos (show (1 : Fin S16x256x256.rank) ∈ DAV.lhsNonContracting by decide)]
  rfl
theorem lhsAV_2 (i : S16x256x64.Idx) (q : DAV.contr.Idx) : (DAV.lhsIdx i q 2).val = (q ⟨0, by decide⟩).val :=
  DAV.lhsIdx_val_of_single rfl i q
theorem rhsAV_0 (i : S16x256x64.Idx) (q : DAV.contr.Idx) : (DAV.rhsIdx i q 0).val = (i 0).val := by
  unfold DotDims.rhsIdx
  rw [dif_pos (show (0 : Fin S16x256x64.rank) ∈ DAV.rhsBatch by decide)]
  rfl
theorem rhsAV_1 (i : S16x256x64.Idx) (q : DAV.contr.Idx) : (DAV.rhsIdx i q 1).val = (q ⟨0, by decide⟩).val :=
  DAV.rhsIdx_val_of_single rfl i q
theorem rhsAV_2 (i : S16x256x64.Idx) (q : DAV.contr.Idx) : (DAV.rhsIdx i q 2).val = (i 2).val := by
  unfold DotDims.rhsIdx
  rw [dif_neg (show ¬(2 : Fin S16x256x64.rank) ∈ DAV.rhsBatch by decide), dif_pos (show (2 : Fin S16x256x64.rank) ∈ DAV.rhsNonContracting by decide)]
  rfl

/-- The head-by-head product of a [16, 256, 256] and a [16, 256, 64] array into the zero tile, at (h, r, d): the sum over
    the 256 key positions of left (h, r, j) times right (h, j, d). -/
theorem matmulAV_apply (a : FVec Ideal S16x256x256 .bf16) (b : FVec Ideal S16x256x64 .bf16)
    (h : Fin 16) (r : Fin 256) (d : Fin 64) :
    matmul (F := Ideal) DAV none a b (constant (F := Ideal) S16x256x64 .f32 0x00000000#32) (ix3 h r d)
      = ∑ j : Fin 256, a (ix3 h r j) * b (ix3 h j d) := by
  simp only [matmul]
  rw [Ideal.matmul_constant_zero_apply, ← Equiv.sum_comp (contrEquiv1 DAV 256 rfl rfl).symm]
  refine Finset.sum_congr rfl fun k _ => ?_
  have hk := contrEquiv1_symm_val DAV 256 rfl rfl k
  have el : DAV.lhsIdx (ix3 h r d) ((contrEquiv1 DAV 256 rfl rfl).symm k) = ix3 h r k := funext fun x => Fin.ext (by
    match x with
    | ⟨0, _⟩ => exact lhsAV_0 _ _
    | ⟨1, _⟩ => exact lhsAV_1 _ _
    | ⟨2, _⟩ => exact (lhsAV_2 _ _).trans hk)
  have er : DAV.rhsIdx (ix3 h r d) ((contrEquiv1 DAV 256 rfl rfl).symm k) = ix3 h k d := funext fun x => Fin.ext (by
    match x with
    | ⟨0, _⟩ => exact rhsAV_0 _ _
    | ⟨1, _⟩ => exact (rhsAV_1 _ _).trans hk
    | ⟨2, _⟩ => exact rhsAV_2 _ _)
  rw [el, er]

/-- The accumulator's update: the accumulator plus the attention tile against the value tile (its unit batch axis
    dropped), head by head. -/
theorem pay6_eq (qb : Vec Ideal S16x256x64 .bf16) (kb : Vec Ideal S1x16x64x256 .f32)
    (vb : Vec Ideal S1x16x256x64 .f32) (acc : Vec Ideal S16x256x64 .f32) :
    k0_pay6 qb kb vb acc = shapeCast S16x256x64
      (addf (F := Ideal) (φ := .f32) acc
        (matmul (F := Ideal) DAV none
          (truncf (φ := .f32) .bf16 (k0_pay4 qb kb) bitsLt_bf16_f32)
          (truncf (φ := .f32) .bf16 (shapeCast S16x256x64 vb shapeCasts_S1x16x256x64_S16x256x64) bitsLt_bf16_f32)
          (constant (F := Ideal) S16x256x64 .f32 0x00000000#32)))
      shapeCasts_S16x256x64_S16x256x64 := rfl

/-- The updated accumulator at (h, r, d): the accumulator there plus the sum over the tile's 256 key positions of the
    attention times the value. -/
theorem pay6_apply (qb : Vec Ideal S16x256x64 .bf16) (kb : Vec Ideal S1x16x64x256 .f32)
    (vb : Vec Ideal S1x16x256x64 .f32) (acc : Vec Ideal S16x256x64 .f32)
    (h : Fin 16) (r : Fin 256) (d : Fin 64) :
    k0_pay6 qb kb vb acc (ix3 h r d)
      = acc (ix3 h r d) + ∑ j : Fin 256, k0_pay4 qb kb (ix3 h r j) * vb (ix4 0 h j d) := by
  rw [pay6_eq, shapeCast_self]
  refine congrArg (acc (ix3 h r d) + ·) ?_
  refine (matmulAV_apply _ _ h r d).trans ?_
  refine Finset.sum_congr rfl fun j _ => congrArg (k0_pay4 qb kb (ix3 h r j) * ·) ?_
  exact shapeCast_1abc_abc_apply vb _ h j d

end Cert.HeadAttn.Tile

end
-- ==== Proof.TileValues.lean ====
/- One key tile's arithmetic in terms of the whole arrays.

   If the cached block holds the scaled queries of rows qi(r), the key block the re-read keys of columns kj(s) and
   the value block the values of rows kj(s), then the tile's attention block is the head-softmax at (qi r, kj s),
   and the accumulator gains the sum over the tile's 256 key positions of attention times value. Summed tile after
   tile in key order these partial sums reach the contraction over all 2048 key positions. -/
import proofs.«130526_j39900246180154_2_alg».proof.Proof.TileArithmetic
import proofs.«130526_j39900246180154_2_alg».proof.Proof.HeadAttention

noncomputable section

open scoped BigOperators

namespace Cert.HeadAttn.Tile

open Idealize.ShloMosaic Idealize.ShloMosaic.ValueIdx
open Cert.KernelIdeal Cert.KernelIdeal.Gen

variable (Q K W : QKV.Idx → EReal) (b : Fin 4) (qi kj : Fin 256 → Fin 2048)

/-- The tile's attention block. -/
theorem tile_attn (qb : Vec Ideal S16x256x64 .bf16) (kb : Vec Ideal S1x16x64x256 .f32)
    (hq : ∀ (h : Fin 16) (r : Fin 256) (d : Fin 64), qb (ix3 h r d) = Q (ix4 b h (qi r) d) * eighth)
    (hk : ∀ (h : Fin 16) (d : Fin 64) (s : Fin 256), kb (ix4 0 h d s) = keyT K b h d (kj s))
    (h : Fin 16) (r s : Fin 256) :
    k0_pay4 qb kb (ix3 h r s) = attn Q K b h (qi r) (kj s) := by
  rw [pay4_apply]
  simp only [hq, hk]
  rfl

/-- What the tile adds to the accumulator. -/
theorem tile_acc (qb : Vec Ideal S16x256x64 .bf16) (kb : Vec Ideal S1x16x64x256 .f32)
    (vb : Vec Ideal S1x16x256x64 .f32) (acc : Vec Ideal S16x256x64 .f32)
    (hq : ∀ (h : Fin 16) (r : Fin 256) (d : Fin 64), qb (ix3 h r d) = Q (ix4 b h (qi r) d) * eighth)
    (hk : ∀ (h : Fin 16) (d : Fin 64) (s : Fin 256), kb (ix4 0 h d s) = keyT K b h d (kj s))
    (hv : ∀ (h : Fin 16) (s : Fin 256) (d : Fin 64), vb (ix4 0 h s d) = W (ix4 b h (kj s) d))
    (h : Fin 16) (r : Fin 256) (d : Fin 64) :
    k0_pay6 qb kb vb acc (ix3 h r d)
      = acc (ix3 h r d) + ∑ s : Fin 256, attn Q K b h (qi r) (kj s) * W (ix4 b h (kj s) d) := by
  rw [pay6_apply]
  simp only [tile_attn Q K b qi kj qb kb hq hk, hv]

/-- The contribution of key position x to the result at (b, h, i, d); nothing past position 2048. -/
def term (h : Fin 16) (i : Fin 2048) (d : Fin 64) (x : ℕ) : EReal :=
  if hx : x < 2048 then attn Q K b h i ⟨x, hx⟩ * W (ix4 b h ⟨x, hx⟩ d) else 0

/-- A tile's 256 contributions, when the tile's rows are key positions 256·jt …. -/
theorem tile_sum (jt : ℕ) (hjt : jt < 8) (hkj : ∀ s : Fin 256, (kj s).val = 256 * jt + s.val)
    (h : Fin 16) (i : Fin 2048) (d : Fin 64) :
    ∑ s : Fin 256, attn Q K b h i (kj s) * W (ix4 b h (kj s) d)
      = ∑ x ∈ Finset.range 256, term Q K W b h i d (256 * jt + x) := by
  rw [Finset.sum_range]
  refine Finset.sum_congr rfl fun s _ => ?_
  have hs := s.isLt
  unfold term
  rw [dif_pos (by omega)]
  have e : kj s = ⟨256 * jt + s.val, by omega⟩ := Fin.ext (hkj s)
  rw [e]

/-- Partial sums in key order: the first jt tiles, then tile jt. -/
theorem partial_succ (jt : ℕ) (hjt : jt < 8) (hkj : ∀ s : Fin 256, (kj s).val = 256 * jt + s.val)
    (h : Fin 16) (i : Fin 2048) (d : Fin 64) :
    ∑ x ∈ Finset.range (256 * jt), term Q K W b h i d x
        + ∑ s : Fin 256, attn Q K b h i (kj s) * W (ix4 b h (kj s) d)
      = ∑ x ∈ Finset.range (256 * (jt + 1)), term Q K W b h i d x := by
  rw [tile_sum Q K W b kj jt hjt hkj, show 256 * (jt + 1) = 256 * jt + 256 by ring, Finset.sum_range_add]

/-- All eight tiles: the contraction over the 2048 key positions. -/
theorem total (h : Fin 16) (i : Fin 2048) (d : Fin 64) :
    ∑ x ∈ Finset.range 2048, term Q K W b h i d x = out Q K W b h i d := by
  rw [Finset.sum_range]
  unfold out
  refine Finset.sum_congr rfl fun j _ => ?_
  unfold term
  rw [dif_pos j.isLt]

end Cert.HeadAttn.Tile

end
-- ==== Proof.KeyReshape.lean ====
/- The keys re-read row-major as [4, 16, 64, 2048].

   A reshape keeps the flat row-major buffer: entry (b, h, d, s) of the new shape sits at position
   ((16 b + h) 64 + d) 2048 + s, which in the old shape [4, 16, 2048, 64] is row (2048 d + s) / 64 and
   column (2048 d + s) mod 64 of head (b, h). -/
import proofs.«130526_j39900246180154_2_alg».proof.Proof.HeadAttention
import Idealize.ShloMosaic.Lib.Pipeline.Value

noncomputable section

namespace Cert.HeadAttn

open Idealize.ShloMosaic Idealize.ShloMosaic.ValueIdx

/-- The re-read keys: [batch, head, feature, position]. -/
abbrev KT : Shape := ⟨4, ![4, 16, 64, 2048]⟩

/-- The reshape of the keys, read at (b, h, d, s), is the re-read key of the specification, whichever proof of
    the cast the program carries. -/
theorem keyT_of_shapeCast (x : QKV.Idx → EReal) (hc : QKV.ShapeCasts KT) (b : Fin 4) (h : Fin 16) (d : Fin 64)
    (s : Fin 2048) : shapeCast KT x hc (ix4 b h d s) = keyT x b h d s := by
  unfold keyT
  refine shapeCast_apply x hc (ix4 b h d s) _ ?_
  rewrite [Shape.rowMajor_val_four, Shape.rowMajor_val_four]
  have hb := b.isLt; have hh := h.isLt; have hd := d.isLt; have hs := s.isLt
  show ((b.val * 16 + h.val) * 2048 + (d.val * 2048 + s.val) / 64) * 64 + (d.val * 2048 + s.val) % 64
    = ((b.val * 16 + h.val) * 64 + d.val) * 2048 + s.val
  omega

end Cert.HeadAttn

end
-- ==== Proof.GridCoords.lean ====
/- The grid point number t of the 4 × 8 × 8 grid read as coordinates: the batch t / 64, the rows of query tile
   (t / 8) % 8 and the key positions of key tile t % 8, each tile 256 wide. -/
import proofs.«130526_j39900246180154_2_alg».proof.Proof.HeadAttention

namespace Cert.HeadAttn

/-- The batch of point t. -/
def bat (t : ℕ) : Fin 4 := ⟨t / 64 % 4, Nat.mod_lt _ (by norm_num)⟩

/-- Row r of point t's query tile, as a query position. -/
def qrow (t : ℕ) (r : Fin 256) : Fin 2048 := ⟨256 * (t / 8 % 8) + r.val, by have := r.isLt; omega⟩

/-- Position s of point t's key tile, as a key position. -/
def krow (t : ℕ) (s : Fin 256) : Fin 2048 := ⟨256 * (t % 8) + s.val, by have := s.isLt; omega⟩

/-- Inside a run of eight key tiles the batch and the query tile do not move. -/
theorem bat_pred (t : ℕ) (h0 : ¬t % 8 = 0) : bat (t - 1) = bat t := Fin.ext (by simp only [bat]; omega)

theorem qrow_pred (t : ℕ) (h0 : ¬t % 8 = 0) (r : Fin 256) : qrow (t - 1) r = qrow t r :=
  Fin.ext (by simp only [qrow]; omega)

end Cert.HeadAttn
-- ==== Proof.TileInvariant.lean ====
/- The run of the grid, point by point.

   After grid point t (batch b, query tile, key tile jt) the cache holds the scaled queries of the point's query
   tile and the accumulator holds, for every head, query row and feature, the sum over the key positions
   below 256·(jt + 1) of attention times value: by induction on the point, the first key tile of each run of
   eight starting from zero. Hence every point writes the head-softmax of its (query tile, key tile) block, and
   the last key tile hands over the contraction over all 2048 key positions. -/
import proofs.«130526_j39900246180154_2_alg».proof.Proof.PointValues
import proofs.«130526_j39900246180154_2_alg».proof.Proof.BlockReads
import proofs.«130526_j39900246180154_2_alg».proof.Proof.TileValues
import proofs.«130526_j39900246180154_2_alg».proof.Proof.KeyReshape
import proofs.«130526_j39900246180154_2_alg».proof.Proof.GridCoords

set_option maxRecDepth 16384

noncomputable section

open scoped BigOperators

namespace Cert.HeadAttn.Run

open Idealize.ShloMosaic Idealize.ShloMosaic.TcCoe Idealize.SL.Sem Idealize.ShloMosaic.ValueIdx
open Cert.KernelIdeal Cert.KernelIdeal.Gen Cert.HeadAttn.Blocks Cert.HeadAttn.Tile Cert.HeadAttn.Points

variable (m : (ℓ : Loc nD τ sig) → Buf (Elt Ideal) ℓ) (c : Dev nD)

/-- The three argument arrays. -/
abbrev Qa : QKV.Idx → EReal := m ((c : Thread nD τ).loc main_arg0)
abbrev Ka : QKV.Idx → EReal := m ((c : Thread nD τ).loc main_arg1)
abbrev Wa : QKV.Idx → EReal := m ((c : Thread nD τ).loc main_arg2)

theorem lt256 (t : Fin cfg0.N) : t.val < 256 := lt_of_lt_of_eq t.isLt (show cfg0.N = 256 from N_0)

theorem bat_eq (t : Fin cfg0.N) : (⟨t.val / 64, batch_lt t⟩ : Fin 4) = bat t.val :=
  Fin.ext (by have := lt256 t; simp only [bat]; omega)

/-! ## The point's blocks, as entries of the arguments -/

theorem q_at (t : Fin cfg0.N) (h : Fin 16) (r : Fin 256) (d : Fin 64) :
    (iblk m c 0 t : Vec Ideal S1x16x256x64 .f32) (ix4 0 h r d) = Qa m c (ix4 (bat t.val) h (qrow t.val r) d) := by
  refine (qblk m c t h r d).trans ?_
  rw [V_main_arg0, bat_eq]
  rfl

theorem k_at (t : Fin cfg0.N) (h : Fin 16) (d : Fin 64) (s : Fin 256) :
    (iblk m c 1 t : Vec Ideal S1x16x64x256 .f32) (ix4 0 h d s) = keyT (Ka m c) (bat t.val) h d (krow t.val s) := by
  refine (kblk m c t h d s).trans ?_
  rw [keys_reread, bat_eq]
  exact keyT_of_shapeCast (Ka m c) shapeCasts_S4x16x2048x64_S4x16x64x2048 (bat t.val) h d (krow t.val s)

theorem v_at (t : Fin cfg0.N) (h : Fin 16) (s : Fin 256) (d : Fin 64) :
    (iblk m c 2 t : Vec Ideal S1x16x256x64 .f32) (ix4 0 h s d) = Wa m c (ix4 (bat t.val) h (krow t.val s) d) := by
  refine (vblk m c t h s d).trans ?_
  rw [V_main_arg2, bat_eq]
  rfl

/-! ## One point, over what the point before left -/

/-- With the scaled queries cached, the point's attention block is the head-softmax of its tile pair. -/
theorem step_attn (t : Fin cfg0.N) (qb : Vec Ideal S16x256x64 .bf16)
    (hq : ∀ (h : Fin 16) (r : Fin 256) (d : Fin 64), qb (ix3 h r d) = Qa m c (ix4 (bat t.val) h (qrow t.val r) d) * eighth)
    (h : Fin 16) (r s : Fin 256) :
    k0_pay5 qb (iblk m c 1 t) (ix4 0 h r s) = attn (Qa m c) (Ka m c) (bat t.val) h (qrow t.val r) (krow t.val s) :=
  (pay5_apply qb (iblk m c 1 t) h r s).trans
    (tile_attn (Qa m c) (Ka m c) (bat t.val) (qrow t.val) (krow t.val) qb (iblk m c 1 t) hq (k_at m c t) h r s)

/-- … and the accumulator's partial sum moves on by the point's 256 key positions. -/
theorem step_acc (t : Fin cfg0.N) (qb : Vec Ideal S16x256x64 .bf16) (acc : Vec Ideal S16x256x64 .f32)
    (hq : ∀ (h : Fin 16) (r : Fin 256) (d : Fin 64), qb (ix3 h r d) = Qa m c (ix4 (bat t.val) h (qrow t.val r) d) * eighth)
    (hacc : ∀ (h : Fin 16) (r : Fin 256) (d : Fin 64), acc (ix3 h r d)
      = ∑ x ∈ Finset.range (256 * (t.val % 8)), term (Qa m c) (Ka m c) (Wa m c) (bat t.val) h (qrow t.val r) d x)
    (h : Fin 16) (r : Fin 256) (d : Fin 64) :
    k0_pay6 qb (iblk m c 1 t) (iblk m c 2 t) acc (ix3 h r d)
      = ∑ x ∈ Finset.range (256 * (t.val % 8 + 1)), term (Qa m c) (Ka m c) (Wa m c) (bat t.val) h (qrow t.val r) d x := by
  refine (tile_acc (Qa m c) (Ka m c) (Wa m c) (bat t.val) (qrow t.val) (krow t.val) qb (iblk m c 1 t) (iblk m c 2 t) acc hq
    (k_at m c t) (v_at m c t) h r d).trans ?_
  rw [hacc]
  exact partial_succ (Qa m c) (Ka m c) (Wa m c) (bat t.val) (krow t.val) (t.val % 8) (Nat.mod_lt _ (by norm_num))
    (fun s => rfl) h (qrow t.val r) d

/-! ## The invariant -/

/-- After point t: the cache holds the scaled queries of t's query tile; the accumulator the partial sums over
    the key positions of t's run up to and including t's key tile. -/
def Inv (t : ℕ) (ht : t < cfg0.N) : Prop :=
  (∀ (h : Fin 16) (r : Fin 256) (d : Fin 64),
      ((outsAt0 m c t ht).2.2.2 : Vec Ideal S16x256x64 .bf16) (ix3 h r d) = Qa m c (ix4 (bat t) h (qrow t r) d) * eighth)
  ∧ (∀ (h : Fin 16) (r : Fin 256) (d : Fin 64),
      ((outsAt0 m c t ht).2.2.1 : Vec Ideal S16x256x64 .f32) (ix3 h r d)
        = ∑ x ∈ Finset.range (256 * (t % 8 + 1)), term (Qa m c) (Ka m c) (Wa m c) (bat t) h (qrow t r) d x)

/-- The freshly cached queries at the first key tile of a run. -/
theorem fresh_cache (t : Fin cfg0.N) (h : Fin 16) (r : Fin 256) (d : Fin 64) :
    k0_pay3 (iblk m c 0 t) (ix3 h r d) = Qa m c (ix4 (bat t.val) h (qrow t.val r) d) * eighth :=
  (pay3_apply (iblk m c 0 t) h r d).trans (by rw [q_at])

/-- The first key tile of a run establishes it from nothing. -/
theorem inv_first (t : Fin cfg0.N) (h0 : t.val % 8 = 0) : Inv m c t.val t.isLt := by
  obtain ⟨-, e0, e1⟩ := first_tile m c t h0 (by omega)
  refine ⟨fun h r d => ?_, fun h r d => ?_⟩
  · rw [e1]; exact fresh_cache m c t h r d
  · rw [e0]
    refine step_acc m c t (k0_pay3 (iblk m c 0 t)) (k0_pay2 (F := Ideal)) (fresh_cache m c t) (fun h r d => ?_) h r d
    rw [pay2_apply, show 256 * (t.val % 8) = 0 by omega, Finset.range_zero, Finset.sum_empty]

/-- A later key tile carries it on. -/
theorem inv_next (t : Fin cfg0.N) (h0 : ¬t.val % 8 = 0)
    (ih : Inv m c (t.val - 1) (Nat.lt_of_le_of_lt (Nat.sub_le _ _) t.isLt)) : Inv m c t.val t.isLt := by
  have hq : ∀ (h : Fin 16) (r : Fin 256) (d : Fin 64),
      ((outsAt0 m c (t.val - 1) (Nat.lt_of_le_of_lt (Nat.sub_le _ _) t.isLt)).2.2.2 : Vec Ideal S16x256x64 .bf16) (ix3 h r d) = Qa m c (ix4 (bat t.val) h (qrow t.val r) d) * eighth := fun h r d => by
    rw [ih.1 h r d, bat_pred t.val h0, qrow_pred t.val h0]
  have hacc : ∀ (h : Fin 16) (r : Fin 256) (d : Fin 64),
      ((outsAt0 m c (t.val - 1) (Nat.lt_of_le_of_lt (Nat.sub_le _ _) t.isLt)).2.2.1 : Vec Ideal S16x256x64 .f32) (ix3 h r d)
        = ∑ x ∈ Finset.range (256 * (t.val % 8)), term (Qa m c) (Ka m c) (Wa m c) (bat t.val) h (qrow t.val r) d x := fun h r d => by
    rw [ih.2 h r d, bat_pred t.val h0, qrow_pred t.val h0, show 256 * ((t.val - 1) % 8 + 1) = 256 * (t.val % 8) by omega]
  have key : (outsAt0 m c t.val t.isLt).2.2.1 = k0_pay6 (outsAt0 m c (t.val - 1) (Nat.lt_of_le_of_lt (Nat.sub_le _ _) t.isLt)).2.2.2 (iblk m c 1 t) (iblk m c 2 t) (outsAt0 m c (t.val - 1) (Nat.lt_of_le_of_lt (Nat.sub_le _ _) t.isLt)).2.2.1
      ∧ (outsAt0 m c t.val t.isLt).2.2.2 = (outsAt0 m c (t.val - 1) (Nat.lt_of_le_of_lt (Nat.sub_le _ _) t.isLt)).2.2.2 := by
    by_cases h1 : t.val % 8 = 7
    · exact ⟨(last_tile m c t h0 h1).2.2.1, (last_tile m c t h0 h1).2.2.2⟩
    · exact ⟨(middle_tile m c t h0 h1).2.1, (middle_tile m c t h0 h1).2.2⟩
  refine ⟨fun h r d => ?_, fun h r d => ?_⟩
  · rw [key.2]; exact hq h r d
  · rw [key.1]; exact step_acc m c t _ _ hq hacc h r d

/-- It holds after every point. -/
theorem inv : ∀ (t : ℕ) (ht : t < cfg0.N), Inv m c t ht := by
  intro t
  induction t with
  | zero => intro ht; exact inv_first m c ⟨0, ht⟩ rfl
  | succ n ih =>
    intro ht
    by_cases h0 : (n + 1) % 8 = 0
    · exact inv_first m c ⟨n + 1, ht⟩ h0
    · exact inv_next m c ⟨n + 1, ht⟩ h0 (ih (Nat.lt_of_succ_lt ht))

/-! ## What every point writes -/

/-- Every point's attention block is the head-softmax of its tile pair. -/
theorem attn_at (t : Fin cfg0.N) (h : Fin 16) (r s : Fin 256) :
    ((outsAt0 m c t.val t.isLt).2.1 : Vec Ideal S1x16x256x256 .f32) (ix4 0 h r s)
      = attn (Qa m c) (Ka m c) (bat t.val) h (qrow t.val r) (krow t.val s) := by
  by_cases h0 : t.val % 8 = 0
  · rw [(first_tile m c t h0 (by omega)).1]
    exact step_attn m c t _ (fresh_cache m c t) h r s
  · have hq : ∀ (h : Fin 16) (r : Fin 256) (d : Fin 64),
        ((outsAt0 m c (t.val - 1) (Nat.lt_of_le_of_lt (Nat.sub_le _ _) t.isLt)).2.2.2 : Vec Ideal S16x256x64 .bf16) (ix3 h r d) = Qa m c (ix4 (bat t.val) h (qrow t.val r) d) * eighth := fun h r d => by
      rw [(inv m c (t.val - 1) _).1 h r d, bat_pred t.val h0, qrow_pred t.val h0]
    by_cases h1 : t.val % 8 = 7
    · rw [(last_tile m c t h0 h1).2.1]; exact step_attn m c t _ hq h r s
    · rw [(middle_tile m c t h0 h1).1]; exact step_attn m c t _ hq h r s

/-- The last key tile of a run hands over the contraction over all 2048 key positions. -/
theorem res_at (t : Fin cfg0.N) (h1 : t.val % 8 = 7) (h : Fin 16) (r : Fin 256) (d : Fin 64) :
    ((outsAt0 m c t.val t.isLt).1 : Vec Ideal S1x16x256x64 .f32) (ix4 0 h r d)
      = out (Qa m c) (Ka m c) (Wa m c) (bat t.val) h (qrow t.val r) d := by
  have h0 : ¬t.val % 8 = 0 := by omega
  rw [(last_tile m c t h0 h1).1, pay1_apply, ← (last_tile m c t h0 h1).2.2.1, (inv m c t.val t.isLt).2 h r d,
    show 256 * (t.val % 8 + 1) = 2048 by omega]
  exact total (Qa m c) (Ka m c) (Wa m c) (bat t.val) h (qrow t.val r) d

end Cert.HeadAttn.Run

end
-- ==== Proof.FinalArrays.lean ====
/- From the blocks to the arrays. Grid point number t of the 4 × 8 × 8 grid stands for batch t / 64, query tile
   (t / 8) % 8 and key tile t % 8. Every point writes its [1, 16, 256, 256] block of the attention array back, and the
   blocks of the 256 points tile the [4, 16, 2048, 2048] array; the last point of each run of eight key tiles
   (t % 8 = 7) writes its [1, 16, 256, 64] block of the result array back, and those 32 blocks tile the
   [4, 16, 2048, 64] array. So if each point leaves in its staging buffers the block of a given attention and of a
   given result, the two arrays end holding that attention and that result. -/
import proofs.«130526_j39900246180154_2_alg».proof.Proof.Gen.KernelIdeal.Value
import proofs.«130526_j39900246180154_2_alg».proof.Proof.BlockReads
import proofs.«130526_j39900246180154_2_alg».proof.Proof.GridCoords
import proofs.«130526_j39900246180154_2_alg».proof.Proof.HeadAttention
import Idealize.ShloMosaic.Lib.Pipeline.Value
import Idealize.ShloMosaic.Lib.ValueIdx

set_option maxRecDepth 16384

noncomputable section

namespace Cert.HeadAttn.Final

open Idealize.ShloMosaic Idealize.ShloMosaic.TcCoe Idealize.SL.Sem Idealize.ShloMosaic.ValueIdx
open Idealize.ShloMosaic.Pipeline (Dat)
open Cert.KernelIdeal Cert.KernelIdeal.Gen Cert.HeadAttn.Blocks

variable (m : (ℓ : Loc nD τ sig) → Buf (Elt Ideal) ℓ) (c : Dev nD)

/-- The attention window's block at point t, entry (0, h, r, s), is entry (batch, h, query row, key position) of the
    attention array. -/
theorem emb4 (t : Fin cfg0.N) (h : Fin 16) (r s : Fin 256) :
    ((cfg0.win 4).blk t).view.emb (ix4 0 h r s) = (ix4 (bat t.val) h (qrow t.val r) (krow t.val s) : S4x16x2048x2048.Idx) := by
  obtain ⟨-, -, -, -, ⟨e0, e1, e2, e3⟩⟩ := idx_facts t
  have hN := lt_of_lt_of_eq t.isLt (show cfg0.N = 256 from N_0)
  funext a
  apply Fin.ext
  match a with
  | ⟨0, _⟩ => show win0_4.index t (0 : Fin 4) * 1 + 1 * 0 = t.val / 64 % 4; omega
  | ⟨1, _⟩ => show win0_4.index t (1 : Fin 4) * 16 + 1 * h.val = h.val; omega
  | ⟨2, _⟩ => show win0_4.index t (2 : Fin 4) * 256 + 1 * r.val = 256 * (t.val / 8 % 8) + r.val; omega
  | ⟨3, _⟩ => show win0_4.index t (3 : Fin 4) * 256 + 1 * s.val = 256 * (t.val % 8) + s.val; omega

/-- What every point writes back to the attention array is its block of the attention. -/
theorem flushed_eq4 (Qa Ka : QKV.Idx → EReal)
    (hattn : ∀ (t : Fin cfg0.N) (h : Fin 16) (r s : Fin 256),
      ((outsAt0 m c t.val t.isLt).2.1 : Vec Ideal S1x16x256x256 .f32) (ix4 0 h r s)
        = attn Qa Ka (bat t.val) h (qrow t.val r) (krow t.val s))
    (t : Fin cfg0.N) :
    (dats m 0 c).flushed 4 t = ((cfg0.win 4).blk t).view.read (Elt Ideal) (attnArr Qa Ka) := by
  rw [Cert.KernelIdeal.Value.flushed4]
  refine funext fun (y : S1x16x256x256.Idx) => ?_
  obtain ⟨a0, h, r, s, rfl⟩ : ∃ (a0 : Fin 1) (h : Fin 16) (r s : Fin 256), y = ix4 a0 h r s :=
    ⟨y 0, y 1, y 2, y 3, eq_ix4 y⟩
  obtain rfl : a0 = 0 := Subsingleton.elim _ _
  rw [View.read_apply]
  show ((outsAt0 m c t.val t.isLt).2.1 : Vec Ideal S1x16x256x256 .f32) (ix4 0 h r s)
    = attnArr Qa Ka (((cfg0.win 4).blk t).view.emb (ix4 0 h r s))
  rw [hattn t h r s, emb4 t h r s]
  rfl

/-- An index of the attention array is in point t's block iff each coordinate is in the block's range on its axis. -/
theorem mem_blk4 (t : Fin cfg0.N) (i : S4x16x2048x2048.Idx) :
    i ∈ ((cfg0.win 4).blk t).view.set ↔ ∀ a : Fin 4, win0_4.index t a * S1x16x256x256.size a ≤ (i a).val
      ∧ (i a).val < win0_4.index t a * S1x16x256x256.size a + S1x16x256x256.size a := by
  show i ∈ ((View.whole main_v1_1).slice (win0_4.rect t)).set ↔ _
  rw [View.set_slice_whole, Rect.mem_set_unit]
  exact Iff.rfl

/-- Every entry (b, h, i, j) of the attention array lies in the block of the point of batch b, query tile i / 256 and
    key tile j / 256, and every point writes its block back. -/
theorem cover4 (i : S4x16x2048x2048.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 2048 := (i 3).isLt
  have hN : cfg0.N = 256 := N_0
  obtain ⟨t, ht⟩ : ∃ t : Fin cfg0.N, t.val = 64 * (i 0).val + 8 * ((i 2).val / 256) + (i 3).val / 256 :=
    ⟨⟨64 * (i 0).val + 8 * ((i 2).val / 256) + (i 3).val / 256, by omega⟩, rfl⟩
  refine ⟨t, flush0_4 t, ?_⟩
  obtain ⟨-, -, -, -, ⟨e0, e1, e2, e3⟩⟩ := idx_facts t
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 256 ≤ (i 2).val ∧ (i 2).val < win0_4.index t (2 : Fin 4) * 256 + 256; omega
  | ⟨3, _⟩ => show win0_4.index t (3 : Fin 4) * 256 ≤ (i 3).val ∧ (i 3).val < win0_4.index t (3 : Fin 4) * 256 + 256; omega

/-- THE ATTENTION ARRAY after the run: when every point leaves its block of the attention in the staging buffer, the
    array ends holding the attention. -/
theorem final_attn (Qa Ka : QKV.Idx → EReal)
    (hattn : ∀ (t : Fin cfg0.N) (h : Fin 16) (r s : Fin 256),
      ((outsAt0 m c t.val t.isLt).2.1 : Vec Ideal S1x16x256x256 .f32) (ix4 0 h r s)
        = attn Qa Ka (bat t.val) h (qrow t.val r) (krow t.val s)) :
    (dats m 0 c).arrAt 4 cfg0.N = attnArr Qa Ka :=
  (dats m 0 c).arrAt_eq_of_cover 4 (attnArr Qa Ka) (fun t _ => flushed_eq4 m c Qa Ka hattn t) cover4

/-- The result window's block at a point, entry (0, h, r, d), is entry (batch, h, query row, d) of the result array. -/
theorem emb3 (t : Fin cfg0.N) (h : Fin 16) (r : Fin 256) (d : Fin 64) :
    ((cfg0.win 3).blk t).view.emb (ix4 0 h r d) = (ix4 (bat t.val) h (qrow t.val r) d : S4x16x2048x64.Idx) := by
  obtain ⟨-, -, -, ⟨e0, e1, e2, e3⟩, -⟩ := idx_facts t
  have hN := lt_of_lt_of_eq t.isLt (show cfg0.N = 256 from N_0)
  funext a
  apply Fin.ext
  match a with
  | ⟨0, _⟩ => show win0_3.index t (0 : Fin 4) * 1 + 1 * 0 = t.val / 64 % 4; omega
  | ⟨1, _⟩ => show win0_3.index t (1 : Fin 4) * 16 + 1 * h.val = h.val; omega
  | ⟨2, _⟩ => show win0_3.index t (2 : Fin 4) * 256 + 1 * r.val = 256 * (t.val / 8 % 8) + r.val; omega
  | ⟨3, _⟩ => show win0_3.index t (3 : Fin 4) * 64 + 1 * d.val = d.val; omega

/-- What a point that closes a run of eight key tiles writes back to the result array is its block of the result. -/
theorem flushed_eq3 (Qa Ka Wa : QKV.Idx → EReal)
    (hres : ∀ (t : Fin cfg0.N), t.val % 8 = 7 → ∀ (h : Fin 16) (r : Fin 256) (d : Fin 64),
      ((outsAt0 m c t.val t.isLt).1 : Vec Ideal S1x16x256x64 .f32) (ix4 0 h r d)
        = out Qa Ka Wa (bat t.val) h (qrow t.val r) d)
    (t : Fin cfg0.N) (hf : (cfg0.win 3).flush t = true) :
    (dats m 0 c).flushed 3 t = ((cfg0.win 3).blk t).view.read (Elt Ideal) (outArr Qa Ka Wa) := by
  have h7 : t.val % 8 = 7 := (flush0_3 t).mp hf
  rw [Cert.KernelIdeal.Value.flushed3]
  refine funext fun (y : S1x16x256x64.Idx) => ?_
  obtain ⟨a0, h, r, d, rfl⟩ : ∃ (a0 : Fin 1) (h : Fin 16) (r : Fin 256) (d : Fin 64), y = ix4 a0 h r d :=
    ⟨y 0, y 1, y 2, y 3, eq_ix4 y⟩
  obtain rfl : a0 = 0 := Subsingleton.elim _ _
  rw [View.read_apply]
  show ((outsAt0 m c t.val t.isLt).1 : Vec Ideal S1x16x256x64 .f32) (ix4 0 h r d)
    = outArr Qa Ka Wa (((cfg0.win 3).blk t).view.emb (ix4 0 h r d))
  rw [hres t h7 h r d, emb3 t h r d]
  rfl

/-- An index of the result array is in point t's block iff each coordinate is in the block's range on its axis. -/
theorem mem_blk3 (t : Fin cfg0.N) (i : S4x16x2048x64.Idx) :
    i ∈ ((cfg0.win 3).blk t).view.set ↔ ∀ a : Fin 4, win0_3.index t a * S1x16x256x64.size a ≤ (i a).val
      ∧ (i a).val < win0_3.index t a * S1x16x256x64.size a + S1x16x256x64.size a := by
  show i ∈ ((View.whole main_v1_0).slice (win0_3.rect t)).set ↔ _
  rw [View.set_slice_whole, Rect.mem_set_unit]
  exact Iff.rfl

/-- Every entry (b, h, i, d) of the result array lies in the block of the LAST point of the run of eight key tiles of
    batch b and query tile i / 256, and that point writes its block back. -/
theorem cover3 (i : S4x16x2048x64.Idx) :
    ∃ t : Fin cfg0.N, (cfg0.win 3).flush t = true ∧ i ∈ ((cfg0.win 3).blk t).view.set := by
  have h0 : (i 0).val < 4 := (i 0).isLt
  have h1 : (i 1).val < 16 := (i 1).isLt
  have h2 : (i 2).val < 2048 := (i 2).isLt
  have h3 : (i 3).val < 64 := (i 3).isLt
  have hN : cfg0.N = 256 := N_0
  obtain ⟨t, ht⟩ : ∃ t : Fin cfg0.N, t.val = 64 * (i 0).val + 8 * ((i 2).val / 256) + 7 :=
    ⟨⟨64 * (i 0).val + 8 * ((i 2).val / 256) + 7, by omega⟩, rfl⟩
  refine ⟨t, (flush0_3 t).mpr (by omega), ?_⟩
  obtain ⟨-, -, -, ⟨e0, e1, e2, e3⟩, -⟩ := idx_facts t
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 16 ≤ (i 1).val ∧ (i 1).val < win0_3.index t (1 : Fin 4) * 16 + 16; omega
  | ⟨2, _⟩ => show win0_3.index t (2 : Fin 4) * 256 ≤ (i 2).val ∧ (i 2).val < win0_3.index t (2 : Fin 4) * 256 + 256; omega
  | ⟨3, _⟩ => show win0_3.index t (3 : Fin 4) * 64 ≤ (i 3).val ∧ (i 3).val < win0_3.index t (3 : Fin 4) * 64 + 64; omega

/-- THE RESULT ARRAY after the run: when every point that closes a run of eight key tiles leaves its block of the
    result in the staging buffer, the array ends holding the result. -/
theorem final_out (Qa Ka Wa : QKV.Idx → EReal)
    (hres : ∀ (t : Fin cfg0.N), t.val % 8 = 7 → ∀ (h : Fin 16) (r : Fin 256) (d : Fin 64),
      ((outsAt0 m c t.val t.isLt).1 : Vec Ideal S1x16x256x64 .f32) (ix4 0 h r d)
        = out Qa Ka Wa (bat t.val) h (qrow t.val r) d) :
    (dats m 0 c).arrAt 3 cfg0.N = outArr Qa Ka Wa :=
  (dats m 0 c).arrAt_eq_of_cover 3 (outArr Qa Ka Wa) (fun t hf => flushed_eq3 m c Qa Ka Wa hres t hf) cover3

end Cert.HeadAttn.Final

end
-- ==== Proof.KernelValue.lean ====
/- The kernel's run, read: after it the two result arrays hold the head-softmax attention and its contraction
   with the values, as functions of the three argument arrays, which end unchanged. -/
import proofs.«130526_j39900246180154_2_alg».proof.Proof.Gen.KernelIdeal.Value
import proofs.«130526_j39900246180154_2_alg».proof.Proof.TileInvariant
import proofs.«130526_j39900246180154_2_alg».proof.Proof.FinalArrays

noncomputable section

namespace Cert.HeadAttn.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The attention array after the run: every point wrote the head-softmax of its tile pair, and the tile pairs
    fill the array. -/
theorem attn_array (c : Dev nD) : (dats m 0 c).arrAt 4 cfg0.N = attnArr (Qa m c) (Ka m c) :=
  Cert.HeadAttn.Final.final_attn m c (Qa m c) (Ka m c) (attn_at m c)

/-- The result array after the run: the last key tile of every run wrote the full contraction for its query tile. -/
theorem out_array (c : Dev nD) : (dats m 0 c).arrAt 3 cfg0.N = outArr (Qa m c) (Ka m c) (Wa m c) :=
  Cert.HeadAttn.Final.final_out m c (Qa m c) (Ka m c) (Wa m c) (res_at m c)

/-- Every weakly fair execution of the kernel's program ends with the two results at these functions of the
    arguments and the arguments unchanged. -/
theorem run : θ_run defs (onTc (τ := τ) (main (F := Ideal))) ⟨m, fun _ => 0, ρ⟩ fun r => ∀ c : Dev nD,
      r.2.mem ((c : Thread nD τ).loc main_v1_0) = outArr (Qa m c) (Ka m c) (Wa m c)
      ∧ r.2.mem ((c : Thread nD τ).loc main_v1_1) = attnArr (Qa m c) (Ka m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (out_array m c), (h c).2.1.trans (attn_array m c), (h c).2.2⟩)
    (Cert.KernelIdeal.Value.run_blocks m ρ)

end Cert.HeadAttn.Run

end
-- ==== Proof.FiniteInputs.lean ====
/- From the precondition to finiteness.

   The precondition says, of each of the three argument arrays, that every entry x satisfies |x| < +∞, the three
   statements joined by "and". At the extended reals |x| = max x (−x), and |x| < +∞ excludes exactly x = +∞ and
   x = −∞: every entry is a real number. -/
import proofs.«130526_j39900246180154_2_alg».proof.Defs
import proofs.«130526_j39900246180154_2_alg».proof.Proof.HeadAttention
import Idealize.ShloMosaic.Lib.ReduceAll

noncomputable section

namespace Cert.HeadAttn.FiniteInputs

open Idealize.ShloMosaic Idealize.ShloMosaic.ValueIdx Idealize.SL.Sem

/-- An extended real whose absolute value max x (−x) lies strictly below +∞ (the pattern 0x7F800000) is a real:
    at x = −∞ the absolute value is −(−∞) = +∞, at x = +∞ it is +∞, and neither is below +∞. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The rank-0 shape has one index. -/
instance : Subsingleton Cert.Pre_finite_inputs.S_.Idx := ⟨fun a b => funext fun d => d.elim0⟩

/-- If the predicate "all |a0| < +∞ and all |a1| < +∞ and all |a2| < +∞" is true, every entry of the three arrays
    is a real: the conjunction gives each "all", an "all" that is true gives the comparison at every index, and the
    comparison at an index gives a real there. -/
theorem finite_of_fn [Cert.Pre_finite_inputs.Facts]
    (a0 a1 a2 : FVec Ideal Cert.Pre_finite_inputs.S4x16x2048x64 .f32)
    (h : Cert.Pre_finite_inputs.fn (F := Ideal) a0 a1 a2 = fun _ => 1#1) :
    Finite a0 ∧ Finite a1 ∧ Finite a2 := by
  have h0 := congrFun h ValueIdx.ix0
  dsimp only [Cert.Pre_finite_inputs.fn] at h0
  obtain ⟨h01, h2'⟩ := IntOp.andi_eq_one.1 h0
  obtain ⟨h0', h1'⟩ := IntOp.andi_eq_one.1 h01
  refine ⟨fun i => ?_, fun i => ?_, fun i => ?_⟩
  · exact real_of_abs_lt_top _ (Host.reduce_andi_all _ _ _ _ _ h0' i)
  · exact real_of_abs_lt_top _ (Host.reduce_andi_all _ _ _ _ _ h1' i)
  · exact real_of_abs_lt_top _ (Host.reduce_andi_all _ _ _ _ _ h2' i)

/-- Under the kernel's precondition the three argument arrays (queries, keys, values) hold real numbers only, on
    every device. -/
theorem finite_args [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    Finite (s := QKV) (m ((c.tc : Thread Cert.KernelIdeal.nD Cert.KernelIdeal.τ).loc Cert.KernelIdeal.main_arg0))
    ∧ Finite (s := QKV) (m ((c.tc : Thread Cert.KernelIdeal.nD Cert.KernelIdeal.τ).loc Cert.KernelIdeal.main_arg1))
    ∧ Finite (s := QKV) (m ((c.tc : Thread Cert.KernelIdeal.nD Cert.KernelIdeal.τ).loc Cert.KernelIdeal.main_arg2)) :=
  finite_of_fn _ _ _ (hpre c)

end Cert.HeadAttn.FiniteInputs

end
-- ==== Proof.ReferenceLogit.lean ====
/- The reference program's logits, read index by index.

   The reference re-reads the keys row-major as [4, 16, 64, 2048], contracts the queries with them over the 64
   features, and divides by eight. At the index (b, h, i, j) this is the sum over d of q[b,h,i,d] times the re-read
   key [b,h,d,j], divided by eight. Nothing here needs the entries to be finite. -/
import proofs.«130526_j39900246180154_2_alg».proof.Proof.Gen.ReferenceIdeal.Read
import proofs.«130526_j39900246180154_2_alg».proof.Proof.HeadAttention

noncomputable section

open scoped BigOperators

namespace Cert.HeadAttn.Reference

open Idealize.ShloMosaic Idealize.ShloMosaic.ValueIdx Cert.ReferenceIdeal Cert.ReferenceIdeal.Read

/-- Eight, the divisor √64, as its binary pattern. -/
abbrev eight : EReal := Ideal.ofBits .f32 0x41000000#32

/-- The reference's logit: the query row against the re-read key column, divided by eight. -/
def refLogit (q k : QKV.Idx → EReal) (b : Fin 4) (h : Fin 16) (i j : Fin 2048) : EReal :=
  Ideal.div (∑ d : Fin 64, q (ix4 b h i d) * keyT k b h d j) eight

/-- Entry (b, h, d, s) of the re-read keys is entry number 2048 d + s of head (b, h)'s flat buffer. -/
theorem keys_reread (k : QKV.Idx → EReal) (b : Fin 4) (h : Fin 16) (d : Fin 64) (s : Fin 2048) :
    val_main_v0 (F := Ideal) k (ix4 b h d s) = keyT k b h d s := by
  rw [val_main_v0_apply]
  unfold keyT
  refine congrArg k (funext fun a => Fin.ext ?_)
  have hb := b.isLt; have hh := h.isLt; have hd := d.isLt; have hs := s.isLt
  match a with
  | ⟨0, _⟩ => show (((b.val * 16 + h.val) * 64 + d.val) * 2048 + s.val) / 2097152 = b.val; omega
  | ⟨1, _⟩ => show (((b.val * 16 + h.val) * 64 + d.val) * 2048 + s.val) / 131072 % 16 = h.val; omega
  | ⟨2, _⟩ => show (((b.val * 16 + h.val) * 64 + d.val) * 2048 + s.val) / 64 % 2048 = (d.val * 2048 + s.val) / 64; omega
  | ⟨3, _⟩ => show (((b.val * 16 + h.val) * 64 + d.val) * 2048 + s.val) % 64 = (d.val * 2048 + s.val) % 64; omega

/-- The reference's scaled score at (b, h, i, j). -/
theorem score_apply (q k : QKV.Idx → EReal) (b : Fin 4) (h : Fin 16) (i j : Fin 2048) :
    val_main_v3 (F := Ideal) q k (ix4 b h i j) = refLogit q k b h i j := by
  rw [val_main_v3_apply, val_main_v1_apply, val_main_v2_apply, val_main_cst_apply]
  unfold refLogit
  simp only [Ideal.hostDivf_def, Ideal.ofBits_def]
  refine congrArg (fun x => Ideal.div x eight) (Finset.sum_congr rfl fun d _ => ?_)
  have el : lidx_main_v1 (ix4 b h i j) d = ix4 b h i d :=
    funext fun a => Fin.ext (by match a with | ⟨0, _⟩ => rfl | ⟨1, _⟩ => rfl | ⟨2, _⟩ => rfl | ⟨3, _⟩ => rfl)
  have er : ridx_main_v1 (ix4 b h i j) d = ix4 b h d j :=
    funext fun a => Fin.ext (by match a with | ⟨0, _⟩ => rfl | ⟨1, _⟩ => rfl | ⟨2, _⟩ => rfl | ⟨3, _⟩ => rfl)
  rw [el, er, keys_reread]

end Cert.HeadAttn.Reference

end
-- ==== Proof.ReferenceSoftmax.lean ====
/- The reference program's softmax over the sixteen heads, read index by index.

   At (b, i, j) the reference takes the maximum M of the sixteen heads' logits (a fold of max started at −∞, joined
   once more with −∞), subtracts it from each head's logit, exponentiates, and divides by the sum over the heads of
   these exponentials (the sum started at the zero pattern). Nothing here needs the entries to be finite. -/
import proofs.«130526_j39900246180154_2_alg».proof.Proof.ReferenceLogit

noncomputable section

open scoped BigOperators

namespace Cert.HeadAttn.Reference

open Idealize.ShloMosaic Idealize.ShloMosaic.ValueIdx Cert.ReferenceIdeal Cert.ReferenceIdeal.Gen Cert.ReferenceIdeal.Read

/-- Minus infinity, the start of the maximum, as its binary pattern. -/
abbrev negInf : EReal := Ideal.ofBits .f32 0xFF800000#32

/-- Zero, the start of the sum, as its binary pattern. -/
abbrev zeroBits : EReal := Ideal.ofBits .f32 0x00000000#32

/-- The maximum over the sixteen heads of the reference's logits at (b, i, j), as the reference forms it. -/
def refMax (q k : QKV.Idx → EReal) (b : Fin 4) (i j : Fin 2048) : EReal :=
  max negInf ((Finset.univ : Finset (Fin 16)).fold max negInf (fun h => refLogit q k b h i j))

/-- The reference's weight: the exponential of the logit less the heads' maximum. -/
def refWeight (q k : QKV.Idx → EReal) (b : Fin 4) (h : Fin 16) (i j : Fin 2048) : EReal :=
  Ideal.exp (refLogit q k b h i j - refMax q k b i j)

/-- The reference's attention: the weight over the sum of the sixteen heads' weights. -/
def refAttn (q k : QKV.Idx → EReal) (b : Fin 4) (h : Fin 16) (i j : Fin 2048) : EReal :=
  Ideal.div (refWeight q k b h i j) (zeroBits + ∑ h' : Fin 16, refWeight q k b h' i j)

/-- The reduction over axis 1 of [4, 16, 2048, 2048] into [4, 2048, 2048]. -/
theorem headAxis : S4x16x2048x2048.Reduces [1] S4x2048x2048 := by decide

/-- The index (b, i, j) with head h' put back on the dropped axis is (b, h', i, j). -/
theorem lift_head (b : Fin 4) (i j : Fin 2048) (h' : Fin (S4x16x2048x2048.size 1)) :
    headAxis.lift (ix3 b i j) h' = ix4 b (⟨h'.val, h'.isLt⟩ : Fin 16) i j := by
  funext c; apply Fin.ext
  fin_cases c <;> rfl

/-- The reduce with a maximum body over the heads, at (b, i, j), is the fold of max over the sixteen logits. -/
theorem headReduce_apply (q k : QKV.Idx → EReal) (b : Fin 4) (i j : Fin 2048) :
    val_main_v4 (F := Ideal) q k (ix3 b i j)
      = (Finset.univ : Finset (Fin 16)).fold max negInf (fun h => refLogit q k b h i j) := by
  unfold val_main_v4
  rw [Host.reduce_eq_fold_single FloatOps.maximumf _ _ reducesTo_S4x16x2048x2048_S4x2048x2048_d1 headAxis h_S_]
  have hf : (val_main_v3 (F := Ideal) q k ∘ headAxis.lift (ix3 b i j)) = fun h : Fin 16 => refLogit q k b h i j :=
    funext fun h => by
      show val_main_v3 (F := Ideal) q k (headAxis.lift (ix3 b i j) h) = _
      rw [lift_head, score_apply]
      rfl
  rw [hf]
  rfl

/-- The heads' maximum as the reference forms it, at (b, i, j). -/
theorem headMax_apply (q k : QKV.Idx → EReal) (b : Fin 4) (i j : Fin 2048) :
    val_main_v6 (F := Ideal) q k (ix3 b i j) = refMax q k b i j := by
  rw [val_main_v6_apply, val_main_v5_apply, val_main_cst_1_apply, headReduce_apply]
  rfl

/-- The maximum broadcast back over the heads. -/
theorem headMax_bcast_apply (q k : QKV.Idx → EReal) (b : Fin 4) (h : Fin 16) (i j : Fin 2048) :
    val_main_v8 (F := Ideal) q k (ix4 b h i j) = refMax q k b i j := by
  rw [val_main_v8_apply, val_main_v7_apply]
  have e : idx_main_v7 (idx_main_v8 (ix4 b h i j)) = ix3 b i j :=
    funext fun a => Fin.ext (by match a with | ⟨0, _⟩ => rfl | ⟨1, _⟩ => rfl | ⟨2, _⟩ => rfl)
  rw [e, headMax_apply]

/-- The reference's weight at (b, h, i, j). -/
theorem weight_apply (q k : QKV.Idx → EReal) (b : Fin 4) (h : Fin 16) (i j : Fin 2048) :
    val_main_v10 (F := Ideal) q k (ix4 b h i j) = refWeight q k b h i j := by
  rw [val_main_v10_apply, val_main_v9_apply, score_apply, headMax_bcast_apply]
  rfl

/-- The sum of the sixteen heads' weights at (b, i, j), started at the zero pattern. -/
theorem weightSum_apply (q k : QKV.Idx → EReal) (b : Fin 4) (i j : Fin 2048) :
    val_main_v11 (F := Ideal) q k (ix3 b i j) = zeroBits + ∑ h' : Fin 16, refWeight q k b h' i j := by
  rw [val_main_v11_apply, val_main_cst_2_apply]
  refine congrArg (zeroBits + ·) (Finset.sum_congr rfl fun h' _ => ?_)
  have e : idx_main_v11 (ix3 b i j) h' = ix4 b h' i j :=
    funext fun a => Fin.ext (by match a with | ⟨0, _⟩ => rfl | ⟨1, _⟩ => rfl | ⟨2, _⟩ => rfl | ⟨3, _⟩ => rfl)
  rw [e, weight_apply]

/-- The sum broadcast back over the heads. -/
theorem weightSum_bcast_apply (q k : QKV.Idx → EReal) (b : Fin 4) (h : Fin 16) (i j : Fin 2048) :
    val_main_v13 (F := Ideal) q k (ix4 b h i j) = zeroBits + ∑ h' : Fin 16, refWeight q k b h' i j := by
  rw [val_main_v13_apply, val_main_v12_apply]
  have e : idx_main_v12 (idx_main_v13 (ix4 b h i j)) = ix3 b i j :=
    funext fun a => Fin.ext (by match a with | ⟨0, _⟩ => rfl | ⟨1, _⟩ => rfl | ⟨2, _⟩ => rfl)
  rw [e, weightSum_apply]

/-- The reference's softmax at (b, h, i, j). -/
theorem softmax_apply (q k : QKV.Idx → EReal) (b : Fin 4) (h : Fin 16) (i j : Fin 2048) :
    val_main_v14 (F := Ideal) q k (ix4 b h i j) = refAttn q k b h i j := by
  rw [val_main_v14_apply, weight_apply, weightSum_bcast_apply]
  rfl

end Cert.HeadAttn.Reference

end
-- ==== Proof.ReferenceOutput.lean ====
/- The reference program's result, read index by index: the softmax over the heads contracted with the values over
   the 2048 key positions. Nothing here needs the entries to be finite. -/
import proofs.«130526_j39900246180154_2_alg».proof.Proof.ReferenceSoftmax

noncomputable section

open scoped BigOperators

namespace Cert.HeadAttn.Reference

open Idealize.ShloMosaic Idealize.ShloMosaic.ValueIdx Cert.ReferenceIdeal Cert.ReferenceIdeal.Gen Cert.ReferenceIdeal.Read

/-- The reference's result at (b, h, i, d): the sum over the key positions j of the attention times v[b,h,j,d]. -/
theorem output_apply (q k v : QKV.Idx → EReal) (b : Fin 4) (h : Fin 16) (i : Fin 2048) (d : Fin 64) :
    val_main_v15 (F := Ideal) q k v (ix4 b h i d) = ∑ j : Fin 2048, refAttn q k b h i j * v (ix4 b h j d) := by
  rw [val_main_v15_apply]
  refine Finset.sum_congr rfl fun j _ => ?_
  have el : lidx_main_v15 (ix4 b h i d) j = ix4 b h i j :=
    funext fun a => Fin.ext (by match a with | ⟨0, _⟩ => rfl | ⟨1, _⟩ => rfl | ⟨2, _⟩ => rfl | ⟨3, _⟩ => rfl)
  have er : ridx_main_v15 (ix4 b h i d) j = ix4 b h j d :=
    funext fun a => Fin.ext (by match a with | ⟨0, _⟩ => rfl | ⟨1, _⟩ => rfl | ⟨2, _⟩ => rfl | ⟨3, _⟩ => rfl)
  rw [el, er, softmax_apply]

end Cert.HeadAttn.Reference

end
-- ==== Proof.HeadMaxReal.lean ====
/- The maximum of sixteen real numbers, formed as a fold of max started at −∞ and joined once more with −∞, is a
   real number: it is at least the first of them and at most their largest. -/
import proofs.«130526_j39900246180154_2_alg».proof.Proof.HeadAttention

noncomputable section

namespace Cert.HeadAttn

open Idealize.ShloMosaic

/-- The pattern 0xFF800000 is −∞. -/
theorem negInf_eq_bot : (Ideal.ofBits .f32 0xFF800000#32 : EReal) = ⊥ := by
  simp [Ideal.ofBits, Ideal.ieee]

/-- The heads' maximum of real logits is real. -/
theorem headMax_real (s : Fin 16 → ℝ) :
    ∃ M : ℝ, max (Ideal.ofBits .f32 0xFF800000#32 : EReal)
      ((Finset.univ : Finset (Fin 16)).fold max (Ideal.ofBits .f32 0xFF800000#32 : EReal) (fun h => (s h : EReal)))
        = (M : EReal) := by
  rw [negInf_eq_bot, max_eq_right bot_le]
  have h1 : (s 0 : EReal) ≤ (Finset.univ : Finset (Fin 16)).fold max (⊥ : EReal) (fun h => (s h : EReal)) :=
    (Finset.le_fold_max _).2 (Or.inr ⟨0, Finset.mem_univ _, le_rfl⟩)
  have h2 : (Finset.univ : Finset (Fin 16)).fold max (⊥ : EReal) (fun h => (s h : EReal))
      ≤ ((Finset.univ.sup' ⟨0, Finset.mem_univ _⟩ s : ℝ) : EReal) :=
    (Finset.fold_max_le _).2 ⟨bot_le, fun x _ => EReal.coe_le_coe_iff.2 (Finset.le_sup' s (Finset.mem_univ x))⟩
  refine ⟨_, (EReal.coe_toReal ?_ ?_).symm⟩
  · intro e; rw [e] at h2; exact EReal.coe_ne_top _ (top_le_iff.1 h2)
  · intro e; rw [e] at h1; exact EReal.coe_ne_bot _ (le_bot_iff.1 h1)

end Cert.HeadAttn

end
-- ==== Proof.HeadSoftmaxLaw.lean ====
/- The softmax over a finite family of real logits, at the extended reals.

   Three laws. (1) Dividing a sum of products by 8 is scaling one factor of every product by 1/8, and the result is
   a real. (2) Subtracting one real M from every logit changes neither the quotient exp(s h − M) / Σ exp(s h' − M)
   nor its value exp(s h) / Σ exp(s h'): numerator and denominator both carry the factor exp(−M), and the
   denominator, a sum of positive reals over a nonempty family, is a nonzero real. (3) The same for a family of
   extended reals every member of which is a real. -/
import Mathlib
import Idealize.ShloMosaic.PureOps.Ideal
import Idealize.ShloMosaic.PureOps.Ideal.Laws
import proofs.«130526_j39900246180154_2_alg».proof.Proof.HeadAttention

noncomputable section

open scoped BigOperators

namespace Cert.HeadAttn.SoftmaxLaw

open Idealize.ShloMosaic

/-- The pattern 0x41000000 is the real 8 = 2³. -/
theorem eight_eq : Ideal.ofBits .f32 0x41000000#32 = ((8 : ℝ) : EReal) := by
  simp [Ideal.ofBits, Ideal.ieee]
  rw [← EReal.coe_mul]; norm_num

/-- The pattern 0x3E000000 is the real 1/8 = 2⁻³. -/
theorem eighth_eq : Ideal.ofBits .f32 0x3E000000#32 = ((1 / 8 : ℝ) : EReal) := by
  simp [Ideal.ofBits, Ideal.ieee]
  rw [← EReal.coe_mul]; norm_num

/-- One eighth, as named in the specification, is that pattern. -/
theorem eighth_def : Cert.HeadAttn.eighth = Ideal.ofBits .f32 0x3E000000#32 := rfl

/-- The pattern 0x00000000 is 0. -/
theorem zero_eq : Ideal.ofBits .f32 0x00000000#32 = (0 : EReal) := by
  simp [Ideal.ofBits, Ideal.ieee]

/-- A finite sum of reals, taken at the extended reals, is the real sum. -/
theorem coe_sum {ι : Type} (t : Finset ι) (f : ι → ℝ) : (∑ i ∈ t, (f i : EReal)) = ((∑ i ∈ t, f i : ℝ) : EReal) := by
  classical
  induction t using Finset.induction_on with
  | empty => simp
  | insert a t ha ih => rw [Finset.sum_insert ha, Finset.sum_insert ha, ih, EReal.coe_add]

theorem scaled_logit {n : ℕ} (x y : Fin n → ℝ) :
    Ideal.div (∑ d, ((x d : ℝ) : EReal) * ((y d : ℝ) : EReal)) (Ideal.ofBits .f32 0x41000000#32)
      = ∑ d, (((x d : ℝ) : EReal) * Ideal.ofBits .f32 0x3E000000#32) * ((y d : ℝ) : EReal) := by
  rw [eight_eq, eighth_eq, Ideal.div_coe (by norm_num : (8 : ℝ) ≠ 0)]
  simp only [← EReal.coe_mul]
  rw [coe_sum, coe_sum, ← EReal.coe_mul, Finset.sum_mul]
  refine congrArg _ (Finset.sum_congr rfl fun d _ => ?_)
  ring

theorem scaled_logit_real {n : ℕ} (x y : Fin n → ℝ) :
    ∃ r : ℝ, ∑ d, (((x d : ℝ) : EReal) * Ideal.ofBits .f32 0x3E000000#32) * ((y d : ℝ) : EReal) = (r : EReal) := by
  refine ⟨∑ d, x d * (1 / 8) * y d, ?_⟩
  rw [eighth_eq]
  simp only [← EReal.coe_mul]
  rw [coe_sum]

/-- The sum of the exponentials of a nonempty family of reals is positive. -/
theorem sum_exp_pos {n : ℕ} [NeZero n] (s : Fin n → ℝ) : 0 < ∑ h, Real.exp (s h) :=
  Finset.sum_pos (fun _ _ => Real.exp_pos _) Finset.univ_nonempty

theorem softmax_shift' {n : ℕ} [NeZero n] (s : Fin n → ℝ) (M : ℝ) (h : Fin n) :
    Ideal.div (Ideal.exp ((s h : EReal) - (M : EReal))) (∑ h', Ideal.exp ((s h' : EReal) - (M : EReal)))
      = Ideal.div (Ideal.exp (s h : EReal)) (∑ h', Ideal.exp (s h' : EReal)) := by
  simp only [← EReal.coe_sub, Ideal.exp_coe]
  rw [coe_sum, coe_sum]
  have hD := sum_exp_pos s
  have hD' := sum_exp_pos fun h' => s h' - M
  rw [Ideal.div_coe hD'.ne', Ideal.div_coe hD.ne', ← EReal.coe_mul, ← EReal.coe_mul]
  congr 1
  have hsum : (∑ h', Real.exp (s h' - M)) = (∑ h', Real.exp (s h')) / Real.exp M := by
    rw [Finset.sum_div]; exact Finset.sum_congr rfl fun h' _ => Real.exp_sub _ _
  rw [hsum, Real.exp_sub]
  have hM := (Real.exp_pos M).ne'
  field_simp

theorem softmax_shift {n : ℕ} [NeZero n] (s : Fin n → ℝ) (M : ℝ) (h : Fin n) :
    Ideal.div (Ideal.exp ((s h : EReal) - (M : EReal)))
        (Ideal.ofBits .f32 0x00000000#32 + ∑ h', Ideal.exp ((s h' : EReal) - (M : EReal)))
      = Ideal.div (Ideal.exp (s h : EReal)) (∑ h', Ideal.exp (s h' : EReal)) := by
  rw [zero_eq, zero_add]; exact softmax_shift' s M h

/-- The same for a family of extended reals each of which is a real, and a shift that is a real. -/
theorem softmax_shift_of_real {n : ℕ} [NeZero n] (s : Fin n → EReal) (M : EReal) (hs : ∀ h, ∃ r : ℝ, s h = (r : EReal))
    (hM : ∃ r : ℝ, M = (r : EReal)) (h : Fin n) :
    Ideal.div (Ideal.exp (s h - M)) (Ideal.ofBits .f32 0x00000000#32 + ∑ h', Ideal.exp (s h' - M))
      = Ideal.div (Ideal.exp (s h)) (∑ h', Ideal.exp (s h')) := by
  choose r hr using hs
  obtain ⟨m, rfl⟩ := hM
  obtain rfl : s = fun h => (r h : EReal) := funext hr
  exact softmax_shift r m h

end Cert.HeadAttn.SoftmaxLaw

end
-- ==== Proof.ReferenceIsHeadAttention.lean ====
/- On finite queries and keys the reference program computes the attention with its softmax over the heads.

   With real entries every logit is a real number, and dividing the sum over the features by eight is scaling each
   query entry by one eighth; the maximum over the sixteen heads is then a real number M, and subtracting M from
   every head's logit multiplies the weight and the sum of the sixteen weights by the same nonzero real exp(−M),
   which the quotient does not see. The result is the attention contracted with the values. -/
import proofs.«130526_j39900246180154_2_alg».proof.Proof.ReferenceOutput
import proofs.«130526_j39900246180154_2_alg».proof.Proof.HeadMaxReal
import proofs.«130526_j39900246180154_2_alg».proof.Proof.HeadSoftmaxLaw

noncomputable section

open scoped BigOperators

namespace Cert.HeadAttn.Reference

open Idealize.ShloMosaic Idealize.ShloMosaic.ValueIdx Cert.ReferenceIdeal Cert.ReferenceIdeal.Gen Cert.ReferenceIdeal.Read

/-- On real entries the reference's logit and the specification's are one real number. -/
theorem logit_real {q k : QKV.Idx → EReal} (hq : Finite q) (hk : Finite k) (b : Fin 4) (h : Fin 16) (i j : Fin 2048) :
    ∃ r : ℝ, refLogit q k b h i j = (r : EReal) ∧ logit q k b h i j = (r : EReal) := by
  choose x hx using fun d : Fin 64 => hq (ix4 b h i d)
  have hy' : ∀ d : Fin 64, ∃ r : ℝ, keyT k b h d j = (r : EReal) := fun d => by unfold keyT; exact hk _
  choose y hy using hy'
  obtain ⟨r, hr⟩ := SoftmaxLaw.scaled_logit_real x y
  have e1 : (∑ d : Fin 64, q (ix4 b h i d) * keyT k b h d j) = ∑ d : Fin 64, ((x d : ℝ) : EReal) * ((y d : ℝ) : EReal) :=
    Finset.sum_congr rfl fun d _ => by rw [hx d, hy d]
  have e2 : (∑ d : Fin 64, (q (ix4 b h i d) * eighth) * keyT k b h d j)
      = ∑ d : Fin 64, (((x d : ℝ) : EReal) * Ideal.ofBits .f32 0x3E000000#32) * ((y d : ℝ) : EReal) :=
    Finset.sum_congr rfl fun d _ => by rw [hx d, hy d]
  refine ⟨r, ?_, ?_⟩
  · unfold refLogit
    rw [e1, SoftmaxLaw.scaled_logit, hr]
  · unfold logit
    rw [e2, hr]

/-- On real entries the reference's softmax over the heads is the specification's. -/
theorem refAttn_eq {q k : QKV.Idx → EReal} (hq : Finite q) (hk : Finite k) (b : Fin 4) (h : Fin 16) (i j : Fin 2048) :
    refAttn q k b h i j = attn q k b h i j := by
  choose s hs using fun h' : Fin 16 => logit_real hq hk b h' i j
  have e1 : ∀ h', refLogit q k b h' i j = (s h' : EReal) := fun h' => (hs h').1
  have e2 : ∀ h', logit q k b h' i j = (s h' : EReal) := fun h' => (hs h').2
  obtain ⟨M, hM⟩ := headMax_real s
  have eM : refMax q k b i j = (M : EReal) := by
    unfold refMax
    rw [show (fun h' => refLogit q k b h' i j) = fun h' => (s h' : EReal) from funext e1]
    exact hM
  unfold refAttn attn refWeight weight
  simp only [eM, e1, e2]
  exact SoftmaxLaw.softmax_shift s M h

/-- The reference's softmax output is the attention array of the specification. -/
theorem reference_attn (q k : QKV.Idx → EReal) (hq : Finite q) (hk : Finite k) :
    val_main_v14 (F := Ideal) q k = attnArr q k := by
  funext y
  obtain ⟨b, h, i, j, rfl⟩ : ∃ (b : Fin 4) (h : Fin 16) (i j : Fin 2048), y = ix4 b h i j :=
    ⟨y 0, y 1, y 2, y 3, eq_ix4 y⟩
  rw [softmax_apply, refAttn_eq hq hk]
  rfl

/-- The reference's result is the result array of the specification. -/
theorem reference_out (q k v : QKV.Idx → EReal) (hq : Finite q) (hk : Finite k) :
    val_main_v15 (F := Ideal) q k v = outArr q k v := by
  funext y
  obtain ⟨b, h, i, d, rfl⟩ : ∃ (b : Fin 4) (h : Fin 16) (i : Fin 2048) (d : Fin 64), y = ix4 b h i d :=
    ⟨y 0, y 1, y 2, y 3, eq_ix4 y⟩
  rw [output_apply]
  show _ = out q k v b h i d
  unfold out
  exact Finset.sum_congr rfl fun j _ => by rw [refAttn_eq hq hk]

end Cert.HeadAttn.Reference

end
-- ==== Proof.lean ====
/- Scaled dot-product attention whose softmax runs over the HEAD axis, tiled over queries and keys with the
   result accumulated over the key tiles, against the plain formula
       attn = softmax over heads of (q · kᵗ) / 8,   out = attn · v
   (kᵗ the keys re-read row-major as [4, 16, 64, 2048]).

   On the extended reals the tiled program computes, index by index, exp(ℓ) / Σ_heads exp(ℓ) with the logit
   ℓ = Σ_d (q_d · 2⁻³) · kᵗ_d, and the contraction of that with v over the 2048 key positions, the eight key
   tiles' partial sums joined by associativity and commutativity of the extended reals' addition alone. The plain
   formula divides the unscaled logit by 8 and subtracts the maximum over the heads before the exponential; for
   FINITE queries and keys every logit is a real number, so is the maximum, the factor 2⁻³ moves through the finite
   sum, and exp(ℓ − M) / Σ exp(ℓ' − M) = exp(ℓ) / Σ exp(ℓ'): the two programs agree. The precondition is used
   exactly there. The ideal pass rewrote nothing, so the idealized kernel is the kernel's own text. -/
import proofs.«130526_j39900246180154_2_alg».proof.Defs
import proofs.«130526_j39900246180154_2_alg».proof.Proof.Gen.Kernel
import proofs.«130526_j39900246180154_2_alg».proof.Proof.Gen.Kernel.Skeleton
import proofs.«130526_j39900246180154_2_alg».proof.Proof.Gen.Kernel.Launch
import proofs.«130526_j39900246180154_2_alg».proof.Proof.Gen.Kernel.Points
import proofs.«130526_j39900246180154_2_alg».proof.Proof.Gen.Kernel.Frame
import proofs.«130526_j39900246180154_2_alg».proof.Proof.Gen.KernelIdeal
import proofs.«130526_j39900246180154_2_alg».proof.Proof.Gen.KernelIdeal.Skeleton
import proofs.«130526_j39900246180154_2_alg».proof.Proof.Gen.KernelIdeal.Launch
import proofs.«130526_j39900246180154_2_alg».proof.Proof.Gen.KernelIdeal.Points
import proofs.«130526_j39900246180154_2_alg».proof.Proof.Gen.KernelIdeal.Frame
import proofs.«130526_j39900246180154_2_alg».proof.Proof.Gen.KernelIdeal.Value
import proofs.«130526_j39900246180154_2_alg».proof.Proof.Gen.ReferenceIdeal
import proofs.«130526_j39900246180154_2_alg».proof.Proof.Gen.ReferenceIdeal.Run
import proofs.«130526_j39900246180154_2_alg».proof.Proof.Gen.ReferenceIdeal.Read
import proofs.«130526_j39900246180154_2_alg».proof.Proof.Gen.Pre_finite_inputs
import proofs.«130526_j39900246180154_2_alg».proof.Proof.KernelValue
import proofs.«130526_j39900246180154_2_alg».proof.Proof.FiniteInputs
import proofs.«130526_j39900246180154_2_alg».proof.Proof.ReferenceIsHeadAttention
import Idealize.ShloMosaic.Adequacy
import Idealize.ShloMosaic.Init

noncomputable section

namespace Cert.Proof

open Idealize.ShloMosaic Idealize.SL.Sem Cert.Kernel

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the result at the contraction of the head-softmax with the values and the attention at
    the head-softmax of the argument arrays: the tiled one for any extended reals, the plain one for finite queries
    and keys. -/
theorem algebraic : Cert.algebraic_KernelIdeal_ReferenceIdeal := by
  intro m ρ m' ρ' hpre hagree
  refine ⟨fun c => Cert.HeadAttn.outArr (Cert.HeadAttn.Run.Qa m c) (Cert.HeadAttn.Run.Ka m c) (Cert.HeadAttn.Run.Wa m c),
    fun c => Cert.HeadAttn.attnArr (Cert.HeadAttn.Run.Qa m c) (Cert.HeadAttn.Run.Ka m c), Cert.HeadAttn.Run.run m ρ, ?_⟩
  refine (θ_run Cert.ReferenceIdeal.defs _ _).mono (fun _ h c => ?_) (Cert.ReferenceIdeal.Value.run (F := Ideal) m' ρ')
  obtain ⟨hq, hk, -⟩ := Cert.HeadAttn.FiniteInputs.finite_args m hpre c
  refine ⟨?_, ?_, (h c).2.2⟩
  · rw [(h c).1, Cert.ReferenceIdeal.Read.val_main_v15_eq, (hagree c).1, (hagree c).2.1, (hagree c).2.2]
    exact Cert.HeadAttn.Reference.reference_out _ _ _ hq hk
  · rw [(h c).2.1, Cert.ReferenceIdeal.Read.val_main_v14_eq, (hagree c).1, (hagree c).2.1]
    exact Cert.HeadAttn.Reference.reference_attn _ _ hq hk

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
